-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S4096x1 : Shape := ⟨2, ![4096, 1]⟩
abbrev S8x1x4096 : Shape := ⟨3, ![8, 1, 4096]⟩
abbrev S512x256 : Shape := ⟨2, ![512, 256]⟩
abbrev S512x1 : Shape := ⟨2, ![512, 1]⟩
abbrev S1x1x4096 : Shape := ⟨3, ![1, 1, 4096]⟩
abbrev S512 : Shape := ⟨1, ![512]⟩
abbrev S4096 : Shape := ⟨1, ![4096]⟩
abbrev S512x4096 : Shape := ⟨2, ![512, 4096]⟩
abbrev S1x4096 : Shape := ⟨2, ![1, 4096]⟩
abbrev S8x4096 : Shape := ⟨2, ![8, 4096]⟩
abbrev S_ : Shape := ⟨0, ![]⟩

abbrev nBuf : Space → Nat
  | .hbm => 27
  | .vmem => 9
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x1, .f32⟩
  | .hbm, ⟨3, _⟩ => ⟨S8x1x4096, .f32⟩
  | .hbm, ⟨4, _⟩ => ⟨S4096x1, .f32⟩
  | .hbm, ⟨5, _⟩ => ⟨S4096, .f32⟩
  | .hbm, ⟨6, _⟩ => ⟨S8x4096, .f32⟩
  | .hbm, ⟨7, _⟩ => ⟨S4096, .f32⟩
  | .hbm, ⟨8, _⟩ => ⟨S_, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S4096, .f32⟩
  | .hbm, ⟨14, _⟩ => ⟨S4096, .f32⟩
  | .hbm, ⟨15, _⟩ => ⟨S4096, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S512x256, .f32⟩
  | .local _ .vmem, ⟨1, _⟩ => ⟨S512x256, .f32⟩
  | .local _ .vmem, ⟨2, _⟩ => ⟨S4096x256, .f32⟩
  | .local _ .vmem, ⟨3, _⟩ => ⟨S512x1, .f32⟩
  | .local _ .vmem, ⟨4, _⟩ => ⟨S512x1, .f32⟩
  | .local _ .vmem, ⟨5, _⟩ => ⟨S1x1x4096, .f32⟩
  | .local _ .vmem, ⟨6, _⟩ => ⟨S1x1x4096, .f32⟩
  | .local _ .vmem, ⟨7, _⟩ => ⟨S512x1, .f32⟩
  | .local _ .vmem, ⟨8, _⟩ => ⟨S512x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c512_i32 : BitVec 32 := 512#32
  let v29 : BitVec 32 := Scalar.muli arg0 c512_i32
  v29
def k0_off1 (i : grid0.Coords) : Fin 2 → Nat :=
  let arg0 : BitVec 32 := BitVec.ofNat 32 (i 0).val
  let c512_i32 : BitVec 32 := 512#32
  let v29 : BitVec 32 := Scalar.muli arg0 c512_i32
  let v30 : BitVec 32 := v29
  let v31 : Index := Scalar.indexCast v30
  let c0_15 : Index := 0#32
  ![v31.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S512x256_S512x256_0_0 : ∀ a, (![0, 0] : Fin 2 → Nat) a + S512x256.size a ≤ S512x256.size a
  h_S512x256 : 0 < S512x256.numel
  inb_S4096x256_S4096x256_0_0 : ∀ a, (![0, 0] : Fin 2 → Nat) a + S4096x256.size a ≤ S4096x256.size a
  h_S4096x256 : 0 < S4096x256.numel
  reduces_S512x256_S512 : S512x256.Reduces [1] S512
  shapeCasts_S512_S512x1 : S512.ShapeCasts S512x1
  broadcasts_S512x1_S512x256 : S512x1.Broadcasts S512x256
  reduces_S4096x256_S4096 : S4096x256.Reduces [1] S4096
  shapeCasts_S4096_S4096x1 : S4096.ShapeCasts S4096x1
  broadcasts_S4096x1_S4096x256 : S4096x1.Broadcasts S4096x256
  reduces_S512x4096_S512 : S512x4096.Reduces [1] S512
  inb_S512x1_S512x1_0_0 : ∀ a, (![0, 0] : Fin 2 → Nat) a + S512x1.size a ≤ S512x1.size a
  h_S512x1 : 0 < S512x1.numel
  reduces_S512x4096_S4096 : S512x4096.Reduces [0] S4096
  shapeCasts_S4096_S1x4096 : S4096.ShapeCasts S1x4096
  shapeCasts_S1x4096_S1x1x4096 : S1x4096.ShapeCasts S1x1x4096
  inb_S1x1x4096_S1x1x4096_0_0_0 : ∀ a, (![0, 0, 0] : Fin 3 → Nat) a + S1x1x4096.size a ≤ S1x1x4096.size a
  h_S1x1x4096 : 0 < S1x1x4096.numel
  shapeCasts_S4096x1_S4096 : S4096x1.ShapeCasts S4096
  shapeCasts_S8x1x4096_S8x4096 : S8x1x4096.ShapeCasts S8x4096
  reducesTo_S8x4096_S4096_d0 : S8x4096.ReducesTo [0] S4096
  h_S_ : 0 < S_.numel
  bcast_S_S4096 : S_.BroadcastsInDim S4096 (![] : Fin 0 → Fin S4096.rank)
  reducesTo_S4096_S_d0 : S4096.ReducesTo [0] S_
  dot_S512x256_S4096x256_S512x4096_1_1_0_0_n_n_wf : DotDims.WF S512x256 S4096x256 S512x4096 [1] [1] [0] [0] [] []
  hrank0 : 0 < grid0.rank
  k0_mult1_dvd : ∀ i : grid0.Coords, 512 ∣ (k0_mult1 i).toNat
  k0_off1_inb : ∀ i : grid0.Coords, ∀ a, (k0_off1 i) a + S512x256.size a ≤ S4096x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x256.size a
  hwx0_0 : ∀ i : grid0.Coords, EltTy.bits .f32 = 32 ∨ (Rect.block (s := S4096x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .f32 = 32 ∨ (Rect.block (s := S4096x256) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S8x1x4096.size a
  hwx0_3 : ∀ i : grid0.Coords, EltTy.bits .f32 = 32 ∨ (Rect.block (s := S8x1x4096) S1x1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)

variable [Facts₀]

def dot_S512x256_S4096x256_S512x4096_1_1_0_0_n_n : DotDims S512x256 S4096x256 S512x4096 where
  lhsContracting := [1]
  rhsContracting := [1]
  lhsNonContracting := [0]
  rhsNonContracting := [0]
  lhsBatch := []
  rhsBatch := []
  wf := dot_S512x256_S4096x256_S512x4096_1_1_0_0_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S512x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x4096.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S8192x256 : Shape := ⟨2, ![8192, 256]⟩
abbrev S256x8192 : Shape := ⟨2, ![256, 8192]⟩
abbrev S8192x8192 : Shape := ⟨2, ![8192, 8192]⟩
abbrev S4096x2 : Shape := ⟨2, ![4096, 2]⟩
abbrev S8192 : Shape := ⟨1, ![8192]⟩
abbrev S8192x1 : Shape := ⟨2, ![8192, 1]⟩
abbrev S1x8192 : Shape := ⟨2, ![1, 8192]⟩

abbrev nBuf : Space → Nat
  | .hbm => 101
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x256, .f32⟩
  | .hbm, ⟨21, _⟩ => ⟨S4096x256, .f32⟩
  | .hbm, ⟨22, _⟩ => ⟨S8192x256, .f32⟩
  | .hbm, ⟨23, _⟩ => ⟨S256x8192, .f32⟩
  | .hbm, ⟨24, _⟩ => ⟨S8192x8192, .f32⟩
  | .hbm, ⟨25, _⟩ => ⟨S4096, .i32⟩
  | .hbm, ⟨26, _⟩ => ⟨S4096, .i32⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .i32⟩
  | .hbm, ⟨37, _⟩ => ⟨S_, .i32⟩
  | .hbm, ⟨38, _⟩ => ⟨S4096, .i32⟩
  | .hbm, ⟨39, _⟩ => ⟨S4096, .i1⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S4096, .i32⟩
  | .hbm, ⟨44, _⟩ => ⟨S4096x1, .i32⟩
  | .hbm, ⟨45, _⟩ => ⟨S4096x1, .i32⟩
  | .hbm, ⟨46, _⟩ => ⟨S4096x2, .i32⟩
  | .hbm, ⟨47, _⟩ => ⟨S4096, .f32⟩
  | .hbm, ⟨48, _⟩ => ⟨S4096, .i32⟩
  | .hbm, ⟨49, _⟩ => ⟨S4096, .i32⟩
  | .hbm, ⟨50, _⟩ => ⟨S_, .i32⟩
  | .hbm, ⟨51, _⟩ => ⟨S4096, .i32⟩
  | .hbm, ⟨52, _⟩ => ⟨S4096, .i32⟩
  | .hbm, ⟨53, _⟩ => ⟨S_, .i32⟩
  | .hbm, ⟨54, _⟩ => ⟨S4096, .i32⟩
  | .hbm, ⟨55, _⟩ => ⟨S4096, .i1⟩
  | .hbm, ⟨56, _⟩ => ⟨S_, .i32⟩
  | .hbm, ⟨57, _⟩ => ⟨S4096, .i32⟩
  | .hbm, ⟨58, _⟩ => ⟨S4096, .i32⟩
  | .hbm, ⟨59, _⟩ => ⟨S4096, .i32⟩
  | .hbm, ⟨60, _⟩ => ⟨S_, .i32⟩
  | .hbm, ⟨61, _⟩ => ⟨S4096, .i32⟩
  | .hbm, ⟨62, _⟩ => ⟨S4096, .i1⟩
  | .hbm, ⟨63, _⟩ => ⟨S_, .i32⟩
  | .hbm, ⟨64, _⟩ => ⟨S4096, .i32⟩
  | .hbm, ⟨65, _⟩ => ⟨S4096, .i32⟩
  | .hbm, ⟨66, _⟩ => ⟨S4096, .i32⟩
  | .hbm, ⟨67, _⟩ => ⟨S4096x1, .i32⟩
  | .hbm, ⟨68, _⟩ => ⟨S4096x1, .i32⟩
  | .hbm, ⟨69, _⟩ => ⟨S4096x2, .i32⟩
  | .hbm, ⟨70, _⟩ => ⟨S4096, .f32⟩
  | .hbm, ⟨71, _⟩ => ⟨S8192, .f32⟩
  | .hbm, ⟨72, _⟩ => ⟨S_, .f32⟩
  | .hbm, ⟨73, _⟩ => ⟨S8192, .f32⟩
  | .hbm, ⟨74, _⟩ => ⟨S8192, .f32⟩
  | .hbm, ⟨75, _⟩ => ⟨S8192, .f32⟩
  | .hbm, ⟨76, _⟩ => ⟨S8192, .i32⟩
  | .hbm, ⟨77, _⟩ => ⟨S_, .i32⟩
  | .hbm, ⟨78, _⟩ => ⟨S8192, .i32⟩
  | .hbm, ⟨79, _⟩ => ⟨S8192, .i1⟩
  | .hbm, ⟨80, _⟩ => ⟨S8192, .f32⟩
  | .hbm, ⟨81, _⟩ => ⟨S8192x1, .f32⟩
  | .hbm, ⟨82, _⟩ => ⟨S1x8192, .f32⟩
  | .hbm, ⟨83, _⟩ => ⟨S8192x8192, .f32⟩
  | .hbm, ⟨84, _⟩ => ⟨S8192x8192, .f32⟩
  | .hbm, ⟨85, _⟩ => ⟨S8192x8192, .i1⟩
  | .hbm, ⟨86, _⟩ => ⟨S8192x8192, .f32⟩
  | .hbm, ⟨87, _⟩ => ⟨S_, .f32⟩
  | .hbm, ⟨88, _⟩ => ⟨S8192x8192, .f32⟩
  | .hbm, ⟨89, _⟩ => ⟨S8192x8192, .f32⟩
  | .hbm, ⟨90, _⟩ => ⟨S8192x8192, .f32⟩
  | .hbm, ⟨91, _⟩ => ⟨S8192x8192, .f32⟩
  | .hbm, ⟨92, _⟩ => ⟨S_, .f32⟩
  | .hbm, ⟨93, _⟩ => ⟨S8192, .f32⟩
  | .hbm, ⟨94, _⟩ => ⟨S8192, .f32⟩
  | .hbm, ⟨95, _⟩ => ⟨S8192, .f32⟩
  | .hbm, ⟨96, _⟩ => ⟨S8192, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_v0 : Ref sig .tc := ⟨.hbm, 25, rfl⟩
abbrev main_call0_v1 : Ref sig .tc := ⟨.hbm, 26, rfl⟩
abbrev main_call0_c : Ref sig .tc := ⟨.hbm, 27, rfl⟩
abbrev main_call0_v2 : Ref sig .tc := ⟨.hbm, 28, rfl⟩
abbrev main_call0_v3 : Ref sig .tc := ⟨.hbm, 29, rfl⟩
abbrev main_call0_c_0 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_c_2 : Ref sig .tc := ⟨.hbm, 37, rfl⟩
abbrev main_call0_v9 : Ref sig .tc := ⟨.hbm, 38, rfl⟩
abbrev main_call0_v10 : Ref sig .tc := ⟨.hbm, 39, rfl⟩
abbrev main_call0_c_3 : Ref sig .tc := ⟨.hbm, 40, rfl⟩
abbrev main_call0_v11 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_v15 : Ref sig .tc := ⟨.hbm, 45, rfl⟩
abbrev main_call0_v16 : Ref sig .tc := ⟨.hbm, 46, rfl⟩
abbrev main_v19 : Ref sig .tc := ⟨.hbm, 47, rfl⟩
abbrev main_call1_v0 : Ref sig .tc := ⟨.hbm, 48, rfl⟩
abbrev main_call1_v1 : Ref sig .tc := ⟨.hbm, 49, rfl⟩
abbrev main_call1_c : Ref sig .tc := ⟨.hbm, 50, rfl⟩
abbrev main_call1_v2 : Ref sig .tc := ⟨.hbm, 51, rfl⟩
abbrev main_call1_v3 : Ref sig .tc := ⟨.hbm, 52, rfl⟩
abbrev main_call1_c_0 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_c_2 : Ref sig .tc := ⟨.hbm, 60, rfl⟩
abbrev main_call1_v9 : Ref sig .tc := ⟨.hbm, 61, rfl⟩
abbrev main_call1_v10 : Ref sig .tc := ⟨.hbm, 62, rfl⟩
abbrev main_call1_c_3 : Ref sig .tc := ⟨.hbm, 63, rfl⟩
abbrev main_call1_v11 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_v15 : Ref sig .tc := ⟨.hbm, 68, rfl⟩
abbrev main_call1_v16 : Ref sig .tc := ⟨.hbm, 69, rfl⟩
abbrev main_v20 : Ref sig .tc := ⟨.hbm, 70, rfl⟩
abbrev main_v21 : Ref sig .tc := ⟨.hbm, 71, rfl⟩
abbrev main_cst_3 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_c : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_cst_4 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_cst_5 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_cst_6 : Ref sig .tc := ⟨.hbm, 97, rfl⟩
abbrev main_v43 : Ref sig .tc := ⟨.hbm, 98, rfl⟩
abbrev main_cst_7 : Ref sig .tc := ⟨.hbm, 99, rfl⟩
abbrev main_v44 : Ref sig .tc := ⟨.hbm, 100, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  concatenates_S4096x256_S4096x256_S8192x256_d0 : Shape.Concatenates [S4096x256, S4096x256] S8192x256 0
  transposes_S8192x256_S256x8192_1_0 : S8192x256.Transposes [1, 0] S256x8192
  bcast_S_S4096 : S_.BroadcastsInDim S4096 (![] : Fin 0 → Fin S4096.rank)
  concatenates_S4096x1_S4096x1_S4096x2_d1 : Shape.Concatenates [S4096x1, S4096x1] S4096x2 1
  concatenates_S4096_S4096_S8192_d0 : Shape.Concatenates [S4096, S4096] S8192 0
  bcast_S_S8192 : S_.BroadcastsInDim S8192 (![] : Fin 0 → Fin S8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  dot_S8192x256_S256x8192_S8192x8192_1_0_0_1_n_n_wf : DotDims.WF S8192x256 S256x8192 S8192x8192 [1] [0] [0] [1] [] []
  gather_S8192x8192_S4096x2_S4096_n_01_n_n_01_1_11_wf : GatherDims.WF S8192x8192 S4096x2 S4096 [] [0, 1] [] [0, 1] [] 1 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.RefResult.lean ====
/-
  The reference's run names its result by one long term of the two argument arrays; that term is the last stage of the
  reference read one operation at a time (each stage is by definition its operation applied to the earlier stages).
-/
import proofs.«141112_j84318797955094_2_alg».proof.Proof.RefRunP
import proofs.«141112_j84318797955094_2_alg».proof.Proof.RefReadP

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

/-- The term the run states for the result is the last stage, of the two argument arrays. -/
theorem val_main_v44_eq (m : (ℓ : Loc nD τ sig) → Buf (Elt F) ℓ) (c : Dev nD) :
    Cert.ReferenceIdeal.ValueP.res_main_v44 m c = val_main_v44 (F := F) (m ((c.tc : Thread nD τ).loc main_arg0)) (m ((c.tc : Thread nD τ).loc main_arg1)) := by
  unfold Cert.ReferenceIdeal.ValueP.res_main_v44; rfl

end Cert.ReferenceIdeal.ReadP

end
-- ==== Proof.Spec.lean ====
/-
  The normalized-temperature cross-entropy loss of two batches of 4096 vectors of length 256, stated ONCE over the two
  argument arrays as extended reals, index by index; both programs are shown to compute it.

  For an array `x` and a row `k`: `len x k` is the row's Euclidean length floored at the small constant `eps`, `dir x k d` the
  row divided by it (a unit vector, or shorter when the row is nearly zero). For two arrays, `sim x y k j` is the inner product
  of row `k` of `x`'s directions with row `j` of `y`'s; `wt` is its exponential at temperature 1/2 (the product with 2);
  `rowSum` and `colSum` add the weights along a row and along a column of the 4096 × 4096 table; `num k` is the exponential
  of the matching pair's similarity over the temperature. The loss is the sum over `k` of `-log (num k / rowSum k)` and of
  `-log (num k / colSum k)`, over 8192.

  The module also holds the three laws of the extended reals that join the programs' two arrangements to this one:
  dividing by one half is multiplying by two (at the infinities too), a sum over 8192 indices is the sum over its two halves,
  and a sum over 8 blocks of 512 rows is the sum over the 4096 rows.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- A 4096 × 256 array of extended reals. -/
abbrev Mat : Type := (⟨2, ![4096, 256]⟩ : Shape).Idx → EReal

/-- The floor under a row's length (the float nearest 1e-12). -/
def eps : EReal := Ideal.ofBits .f32 0x2B8CBCCC#32
/-- The temperature, one half. -/
def half : EReal := Ideal.ofBits .f32 0x3F000000#32
/-- Its reciprocal, two. -/
def two : EReal := Ideal.ofBits .f32 0x40000000#32
/-- The number of terms, 8192. -/
def count : EReal := Ideal.ofBits .f32 0x46000000#32

/-- Row `k`'s Euclidean length, floored at `eps` (for an array of any number of rows: the same words read a block of rows). -/
def len {n : Nat} (x : (⟨2, ![n, 256]⟩ : Shape).Idx → EReal) (k : Fin n) : EReal :=
  max (Ideal.sqrt (∑ d : Fin 256, x (ix2 k d) * x (ix2 k d))) eps
/-- Row `k` divided by its floored length. -/
def dir {n : Nat} (x : (⟨2, ![n, 256]⟩ : Shape).Idx → EReal) (k : Fin n) (d : Fin 256) : EReal := Ideal.div (x (ix2 k d)) (len x k)

/-- A row's direction depends on that row only: two arrays that agree on a row (row `k` of one, row `k'` of the other) have the
    same direction there. -/
theorem dir_congr {n n' : Nat} (x : (⟨2, ![n, 256]⟩ : Shape).Idx → EReal) (x' : (⟨2, ![n', 256]⟩ : Shape).Idx → EReal)
    (k : Fin n) (k' : Fin n') (h : ∀ d : Fin 256, x (ix2 k d) = x' (ix2 k' d)) (d : Fin 256) : dir x k d = dir x' k' d := by
  unfold dir len
  rw [h d, Finset.sum_congr rfl fun e _ => by rw [h e]]
/-- The inner product of direction `k` of `x` with direction `j` of `y`. -/
def sim (x y : Mat) (k j : Fin 4096) : EReal := ∑ d : Fin 256, dir x k d * dir y j d
/-- Its weight: the exponential of the similarity times two. -/
def wt (x y : Mat) (k j : Fin 4096) : EReal := Ideal.exp (sim x y k j * two)
/-- The weights of row `k`, added. -/
def rowSum (x y : Mat) (k : Fin 4096) : EReal := ∑ j : Fin 4096, wt x y k j
/-- The weights of column `j`, added. -/
def colSum (x y : Mat) (j : Fin 4096) : EReal := ∑ k : Fin 4096, wt x y k j
/-- The matching pair's weight, written as the quotient by one half. -/
def num (x y : Mat) (k : Fin 4096) : EReal := Ideal.exp (Ideal.div (sim x y k k) half)
/-- The loss of `x`'s row `k` against all of `y`. -/
def lossRow (x y : Mat) (k : Fin 4096) : EReal := -Ideal.log (Ideal.div (num x y k) (rowSum x y k))
/-- The loss of `y`'s row `k` against all of `x`. -/
def lossCol (x y : Mat) (k : Fin 4096) : EReal := -Ideal.log (Ideal.div (num x y k) (colSum x y k))
/-- The mean of the 8192 losses. -/
def loss (x y : Mat) : EReal := Ideal.div ((∑ k : Fin 4096, lossRow x y k) + ∑ k : Fin 4096, lossCol x y k) count

/-! ## The constants as reals -/

theorem half_eq : half = ((1 / 2 : ℝ) : EReal) := by
  unfold half; simp [Ideal.ofBits, Ideal.ieee, -EReal.coe_mul]; norm_num

theorem two_eq : two = ((2 : ℝ) : EReal) := by
  unfold two; simp [Ideal.ofBits, Ideal.ieee, -EReal.coe_mul]; norm_num

/-- Dividing by one half is multiplying by two, for every extended real. -/
theorem div_half (s : EReal) : Ideal.div s half = s * two := by
  rw [half_eq, two_eq, Ideal.div_coe (by norm_num : (1 / 2 : ℝ) ≠ 0)]
  norm_num

/-! ## Two regroupings of a finite sum -/

/-- A sum over 8192 indices is the sum over the first 4096 plus the sum over the last 4096. -/
theorem sum_halves {M : Type*} [AddCommMonoid M] (f : Fin 8192 → M) :
    ∑ a : Fin 8192, f a
      = (∑ k : Fin 4096, f ⟨k.val, by have := k.isLt; omega⟩) + ∑ k : Fin 4096, f ⟨4096 + k.val, by have := k.isLt; omega⟩ := by
  have h := Fin.sum_univ_add (M := M) (a := 4096) (b := 4096) f
  exact h

/-- A sum over 8 blocks of 512 rows is the sum over the 4096 rows. -/
theorem sum_blocks {M : Type*} [AddCommMonoid M] (f : Fin 4096 → M) :
    ∑ b : Fin 8, ∑ r : Fin 512, f ⟨b.val * 512 + r.val, by have := b.isLt; have := r.isLt; omega⟩ = ∑ k : Fin 4096, f k := by
  rw [← Fintype.sum_prod_type' (f := fun (b : Fin 8) (r : Fin 512) => f ⟨b.val * 512 + r.val, by have := b.isLt; have := r.isLt; omega⟩)]
  rw [← Equiv.sum_comp (finProdFinEquiv (m := 8) (n := 512)) f]
  refine Finset.sum_congr rfl fun p _ => congrArg f (Fin.ext ?_)
  simp [finProdFinEquiv]
  ring

end Cert.Spec

end
-- ==== Proof.RefWords.lean ====
/-
  The two halves of an axis of 8192 rows, and the 32-bit words the reference computes its row and column numbers with.

  A number below 2^31 written as a 32-bit word reads back, signed, as itself: so it is never "below zero", adding
  4096 to such a word is the word of the sum, and clamping the signed reading of a word below 8192 into [0, 8191]
  changes nothing. The comparison "at least 4096" of a row number is the bit 0 on the first half and the bit 1 on the
  second; a bit converted to an extended real is 0 or 1, and "differs from" between two such numbers is the bit one
  expects.
-/
import Idealize.ShloMosaic.Lib.ValueIdx
import Idealize.ShloMosaic.PureOps.Ideal.Laws

noncomputable section

namespace Cert.RefLoss

open Idealize.ShloMosaic Idealize.ShloMosaic.ValueIdx

/-- Row `k` of the first half of an axis of 8192. -/
abbrev lo (k : Fin 4096) : Fin 8192 := ⟨k.val, by have := k.isLt; omega⟩
/-- Row `k` of the second half of an axis of 8192. -/
abbrev hi (k : Fin 4096) : Fin 8192 := ⟨4096 + k.val, by have := k.isLt; omega⟩

/-! ## Words -/

/-- A number below 2^31 written as a 32-bit word reads back, signed, as itself. -/
theorem word_toInt (n : Nat) (h : n < 2147483648) : (BitVec.ofNat 32 n).toInt = (n : Int) := by
  rw [BitVec.toInt_eq_toNat_cond, BitVec.toNat_ofNat]
  have h1 : n % 2 ^ 32 = n := Nat.mod_eq_of_lt (by omega)
  rw [h1, if_pos (by omega)]

/-- Such a word is not below zero. -/
theorem word_nonneg (n : Nat) (h : n < 2147483648) : IntOp.cmpi .slt (BitVec.ofNat 32 n) 0#32 = 0#1 := by
  unfold IntOp.cmpi
  have h0 : (0#32 : BitVec 32).toInt = 0 := by decide
  simp only [BitVec.slt, word_toInt n h, h0]
  have : ¬ ((n : Int) < 0) := by omega
  simp [this]

/-- So "if below zero then something else, otherwise the word" is the word. -/
theorem sel_word (n : Nat) (h : n < 2147483648) (alt : BitVec 32) :
    Scalar.select (IntOp.cmpi .slt (BitVec.ofNat 32 n) 0#32) alt (BitVec.ofNat 32 n) = BitVec.ofNat 32 n := by
  rw [word_nonneg n h, select_zero]

/-- 4096 plus a word is the word of the sum. -/
theorem add_word (n : Nat) : IntOp.addi (4096#32) (BitVec.ofNat 32 n) = BitVec.ofNat 32 (4096 + n) := by
  unfold IntOp.addi
  rw [BitVec.ofNat_add]

/-- The word of a number below 8192, read signed and clamped into [0, 8191], is the number. -/
theorem clamp_word (n : Nat) (h : n < 8192) : min (BitVec.ofNat 32 n).toInt.toNat 8191 = n := by
  rw [word_toInt n (by omega)]
  simp only [Int.toNat_natCast]
  omega

/-- A row number below 4096 is not "at least 4096" … -/
theorem ge_lo (n : Nat) (h : n < 4096) : IntOp.cmpi .sge (BitVec.ofNat 32 n) 4096#32 = 0#1 := by
  unfold IntOp.cmpi
  simp only [BitVec.sle, word_toInt n (by omega)]
  have h2 : (4096#32 : BitVec 32).toInt = 4096 := by decide
  rw [h2]
  have : ¬ ((4096 : Int) ≤ (n : Int)) := by omega
  simp [this]

/-- … and one from 4096 on is. -/
theorem ge_hi (n : Nat) (h : 4096 ≤ n) (h' : n < 8192) : IntOp.cmpi .sge (BitVec.ofNat 32 n) 4096#32 = 1#1 := by
  unfold IntOp.cmpi
  simp only [BitVec.sle, word_toInt n (by omega)]
  have h2 : (4096#32 : BitVec 32).toInt = 4096 := by decide
  rw [h2]
  have : ((4096 : Int) ≤ (n : Int)) := by omega
  simp [this]

/-! ## Bits as extended reals -/

/-- The bit 0 converts to the number 0 … -/
theorem bit0 : FloatOps.uitofp (F := Ideal) .f32 (0#1 : BitVec 1) = (0 : EReal) := by
  show (((0#1 : BitVec 1).toNat : ℝ) : EReal) = 0
  simp

/-- … and the bit 1 to the number 1. -/
theorem bit1 : FloatOps.uitofp (F := Ideal) .f32 (1#1 : BitVec 1) = (1 : EReal) := by
  show (((1#1 : BitVec 1).toNat : ℝ) : EReal) = 1
  simp

/-- "Differs from", on the numbers 0 and 1. -/
theorem ne_00 : FloatOps.cmpf (F := Ideal) (φ := .f32) .une (0 : EReal) (0 : EReal) = 0#1 := by
  rw [Ideal.cmpf_def]; simp [Ideal.cmp]
theorem ne_01 : FloatOps.cmpf (F := Ideal) (φ := .f32) .une (0 : EReal) (1 : EReal) = 1#1 := by
  rw [Ideal.cmpf_def]; simp [Ideal.cmp]
theorem ne_10 : FloatOps.cmpf (F := Ideal) (φ := .f32) .une (1 : EReal) (0 : EReal) = 1#1 := by
  rw [Ideal.cmpf_def]; simp [Ideal.cmp]
theorem ne_11 : FloatOps.cmpf (F := Ideal) (φ := .f32) .une (1 : EReal) (1 : EReal) = 0#1 := by
  rw [Ideal.cmpf_def]; simp [Ideal.cmp]

end Cert.RefLoss

end
-- ==== Proof.RefDir.lean ====
/-
  The reference's first stages, read index by index: each argument array divided row by row by its floored Euclidean
  length is the array of directions of the specification; the two arrays of directions stacked (8192 rows) and
  multiplied with the transpose give, in the two off-diagonal 4096 × 4096 blocks, the table of similarities and its
  transpose.

  For a row `k` the sum of squares starts from the zero word, and `0 + s = s`; the square root, the floor and the
  quotient are then those of the specification, term for term. The product of the stacked array with its transpose at
  `(a, b)` is the inner product of rows `a` and `b`; with `a` in the first half and `b` in the second it is
  `sim x y k j`, and with `a` in the second half and `b` in the first it is the same sum with each product's factors
  exchanged, `sim x y j k`.
-/
import proofs.«141112_j84318797955094_2_alg».proof.Proof.RefReadP
import proofs.«141112_j84318797955094_2_alg».proof.Proof.Spec
import proofs.«141112_j84318797955094_2_alg».proof.Proof.RefWords
import Idealize.ShloMosaic.Lib.ValueIdx
import Idealize.ShloMosaic.Lib.Pipeline.Value
import Idealize.ShloMosaic.PureOps.Ideal.Laws

noncomputable section

open scoped BigOperators

namespace Cert.RefLoss

open Cert.ReferenceIdeal Cert.ReferenceIdeal.Gen Cert.ReferenceIdeal.ReadP Cert.Spec
open Idealize.ShloMosaic Idealize.ShloMosaic.ValueIdx

/-- The first argument divided by its rows' floored lengths is its array of directions. -/
theorem v7_apply (x : Mat) (k : Fin 4096) (d : Fin 256) :
    val_main_v7 (F := Ideal) x (ix2 k d) = dir x k d := by
  have hidx : ∀ d' : Fin 256, idx_main_v1 (idx_main_v2 (idx_main_v6 (ix2 k d))) d' = ix2 k d' := fun d' =>
    funext fun a => Fin.ext (by match a with | ⟨0, _⟩ => rfl | ⟨1, _⟩ => rfl)
  rw [val_main_v7_apply, val_main_v6_apply, val_main_v5_apply, val_main_v3_apply, val_main_v2_apply,
    val_main_v1_apply, val_main_v4_apply, val_main_cst_0_apply, val_main_cst_apply]
  simp only [val_main_v0_apply, hidx, Ideal.hostDivf_def, Ideal.hostUnary_sqrt_def, Ideal.maximumf_def,
    Ideal.mulf_def, Ideal.ofBits_def, Ideal.ofBits_zero_f32, zero_add]
  rfl

/-- The second argument divided by its rows' floored lengths is its array of directions. -/
theorem v15_apply (y : Mat) (k : Fin 4096) (d : Fin 256) :
    val_main_v15 (F := Ideal) y (ix2 k d) = dir y k d := by
  have hidx : ∀ d' : Fin 256, idx_main_v9 (idx_main_v10 (idx_main_v14 (ix2 k d))) d' = ix2 k d' := fun d' =>
    funext fun a => Fin.ext (by match a with | ⟨0, _⟩ => rfl | ⟨1, _⟩ => rfl)
  rw [val_main_v15_apply, val_main_v14_apply, val_main_v13_apply, val_main_v11_apply, val_main_v10_apply,
    val_main_v9_apply, val_main_v12_apply, val_main_cst_2_apply, val_main_cst_1_apply]
  simp only [val_main_v8_apply, hidx, Ideal.hostDivf_def, Ideal.hostUnary_sqrt_def, Ideal.maximumf_def,
    Ideal.mulf_def, Ideal.ofBits_def, Ideal.ofBits_zero_f32, zero_add]
  rfl

/-- The stacked array's first 4096 rows are the first argument's directions. -/
theorem v16_lo (x y : Mat) (k : Fin 4096) (d : Fin 256) :
    val_main_v16 (F := Ideal) x y (ix2 (lo k) d) = dir x k d := by
  unfold val_main_v16
  refine (concatenate_pair_apply_left (t := S8192x256) (s₁ := S4096x256) (s₂ := S4096x256) _ _ _ _ (ix2 (lo k) d) rfl
    (ix2 k d) (fun b => ?_)).trans (v7_apply x k d)
  match b with
  | ⟨0, _⟩ => rfl
  | ⟨1, _⟩ => rfl

/-- The stacked array's last 4096 rows are the second argument's directions. -/
theorem v16_hi (x y : Mat) (k : Fin 4096) (d : Fin 256) :
    val_main_v16 (F := Ideal) x y (ix2 (hi k) d) = dir y k d := by
  unfold val_main_v16
  refine (concatenate_pair_apply_right (t := S8192x256) (s₁ := S4096x256) (s₂ := S4096x256) _ _ _ _ (ix2 (hi k) d) rfl rfl
    (ix2 k d) (fun b hb => ?_) ?_).trans (v15_apply y k d)
  · match b with
    | ⟨0, _⟩ => exact absurd rfl hb
    | ⟨1, _⟩ => rfl
  · show k.val + 4096 = 4096 + k.val
    omega

/-- The product of the stacked array with its transpose at `(a, b)`: the inner product of rows `a` and `b`. -/
theorem v18_apply (x y : Mat) (a b : Fin 8192) :
    val_main_v18 (F := Ideal) x y (ix2 a b)
      = ∑ d : Fin 256, val_main_v16 (F := Ideal) x y (ix2 a d) * val_main_v16 (F := Ideal) x y (ix2 b d) := by
  have hl : ∀ d : Fin 256, lidx_main_v18 (ix2 a b) d = ix2 a d := fun d =>
    funext fun c => Fin.ext (by match c with | ⟨0, _⟩ => rfl | ⟨1, _⟩ => rfl)
  have hr : ∀ d : Fin 256, idx_main_v17 (ridx_main_v18 (ix2 a b) d) = ix2 b d := fun d =>
    funext fun c => Fin.ext (by match c with | ⟨0, _⟩ => rfl | ⟨1, _⟩ => rfl)
  rw [val_main_v18_apply]
  simp only [val_main_v17_apply, hl, hr]

/-- A row of the first half against a row of the second: the similarity. -/
theorem v18_lo_hi (x y : Mat) (k j : Fin 4096) :
    val_main_v18 (F := Ideal) x y (ix2 (lo k) (hi j)) = sim x y k j := by
  rw [v18_apply]
  unfold sim
  exact Finset.sum_congr rfl fun d _ => by rw [v16_lo, v16_hi]

/-- A row of the second half against a row of the first: the similarity of the exchanged pair. -/
theorem v18_hi_lo (x y : Mat) (k j : Fin 4096) :
    val_main_v18 (F := Ideal) x y (ix2 (hi k) (lo j)) = sim x y j k := by
  rw [v18_apply]
  unfold sim
  exact Finset.sum_congr rfl fun d _ => by rw [v16_hi, v16_lo, mul_comm]

end Cert.RefLoss

end
-- ==== Proof.RefGather.lean ====
/-
  The two diagonals the reference reads off its 8192 × 8192 table of inner products.

  A gather of single elements of a rank-2 array at a 4096 × 2 array of start indices reads, at `k`, the array at the
  index whose two coordinates are the two words of row `k`, each read as a signed number and clamped into [0, 8191].
  The words are computed from the row number `k` < 4096 on 32 bits: `k` itself, and 4096 + `k`; each is offered a
  replacement (itself plus 8192) in case it is below zero, which for these values it never is. So the first call
  reads the table at (k, 4096 + k) and the second at (4096 + k, k).
-/
import proofs.«141112_j84318797955094_2_alg».proof.Proof.RefReadP
import proofs.«141112_j84318797955094_2_alg».proof.Proof.Spec
import proofs.«141112_j84318797955094_2_alg».proof.Proof.RefWords
import Idealize.ShloMosaic.Lib.ValueIdx
import Idealize.ShloMosaic.Lib.Pipeline.Value
import Idealize.ShloMosaic.PureOps.Ideal.Laws

noncomputable section

namespace Cert.RefLoss

open Cert.ReferenceIdeal Cert.ReferenceIdeal.Gen Cert.ReferenceIdeal.ReadP Cert.Spec
open Idealize.ShloMosaic Idealize.ShloMosaic.ValueIdx

/-- The gather of single elements of an 8192 × 8192 array at a 4096 × 2 array of start indices, read at `k`: the
    operand at the index whose two coordinates are the two words of row `k`, each read signed and clamped into
    [0, 8191]. On each operand axis the index is the clamped start plus a batching coordinate plus an offset
    coordinate; there is no batching axis and both axes are collapsed, so the last two are zero. -/
theorem gather_pair_apply {α : Type} (x : S8192x8192.Idx → α) (idx : IVec S4096x2 32) (k : Fin 4096) :
    Host.gather gather_S8192x8192_S4096x2_S4096_n_01_n_n_01_1_11 x idx (ix1 k)
      = x (ix2 (⟨min (idx (ix2 k (0 : Fin 2))).toInt.toNat 8191, by omega⟩ : Fin 8192)
               (⟨min (idx (ix2 k (1 : Fin 2))).toInt.toNat 8191, by omega⟩ : Fin 8192)) := by
  unfold Host.gather
  congr 1
  funext a
  refine Fin.ext ?_
  match a with
  | ⟨0, _⟩ =>
    show gather_S8192x8192_S4096x2_S4096_n_01_n_n_01_1_11.start (ix1 k) idx 0
        + gather_S8192x8192_S4096x2_S4096_n_01_n_n_01_1_11.batchCoord (ix1 k) 0
        + gather_S8192x8192_S4096x2_S4096_n_01_n_n_01_1_11.offCoord (ix1 k) 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin S8192x8192.rank) ∈ gather_S8192x8192_S4096x2_S4096_n_01_n_n_01_1_11.startIndexMap by decide)]
    have hsi : gather_S8192x8192_S4096x2_S4096_n_01_n_n_01_1_11.siIdx (ix1 k)
        ⟨List.idxOf (0 : Fin S8192x8192.rank) gather_S8192x8192_S4096x2_S4096_n_01_n_n_01_1_11.startIndexMap,
          List.idxOf_lt_length_iff.2 (by decide)⟩ = ix2 k (0 : Fin 2) := by
      funext b; refine Fin.ext ?_
      match b with
      | ⟨0, _⟩ => rfl
      | ⟨1, _⟩ => rfl
    rw [hsi]
    rfl
  | ⟨1, _⟩ =>
    show gather_S8192x8192_S4096x2_S4096_n_01_n_n_01_1_11.start (ix1 k) idx 1
        + gather_S8192x8192_S4096x2_S4096_n_01_n_n_01_1_11.batchCoord (ix1 k) 1
        + gather_S8192x8192_S4096x2_S4096_n_01_n_n_01_1_11.offCoord (ix1 k) 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin S8192x8192.rank) ∈ gather_S8192x8192_S4096x2_S4096_n_01_n_n_01_1_11.startIndexMap by decide)]
    have hsi : gather_S8192x8192_S4096x2_S4096_n_01_n_n_01_1_11.siIdx (ix1 k)
        ⟨List.idxOf (1 : Fin S8192x8192.rank) gather_S8192x8192_S4096x2_S4096_n_01_n_n_01_1_11.startIndexMap,
          List.idxOf_lt_length_iff.2 (by decide)⟩ = ix2 k (1 : Fin 2) := by
      funext b; refine Fin.ext ?_
      match b with
      | ⟨0, _⟩ => rfl
      | ⟨1, _⟩ => rfl
    rw [hsi]
    rfl

/-! ## The start-index words -/

/-- First call, first word of row `k`: the row number. -/
theorem call0_row (k : Fin 4096) :
    val_main_call0_v16 (F := Ideal) (ix2 k (0 : Fin 2)) = BitVec.ofNat 32 k.val := by
  unfold val_main_call0_v16
  refine (concatenate_pair_apply_left (t := S4096x2) (s₁ := S4096x1) (s₂ := S4096x1) _ _ _ _ (ix2 k (0 : Fin 2)) rfl
    (ix2 k (0 : Fin 1)) (fun b => ?_)).trans ?_
  · match b with
    | ⟨0, _⟩ => rfl
    | ⟨1, _⟩ => rfl
  · have hi : idx_main_call0_v14 (ix2 k (0 : Fin 1)) = ix1 k :=
      funext fun a => Fin.ext (by match a with | ⟨0, _⟩ => rfl)
    rw [val_main_call0_v14_apply, hi, val_main_call0_v8_apply, val_main_call0_v5_apply, val_main_call0_v0_apply,
      val_main_call0_v4_apply, val_main_call0_c_0_apply]
    exact sel_word k.val (by have := k.isLt; omega) _

/-- First call, second word of row `k`: 4096 plus the row number. -/
theorem call0_col (k : Fin 4096) :
    val_main_call0_v16 (F := Ideal) (ix2 k (1 : Fin 2)) = BitVec.ofNat 32 (4096 + k.val) := by
  unfold val_main_call0_v16
  refine (concatenate_pair_apply_right (t := S4096x2) (s₁ := S4096x1) (s₂ := S4096x1) _ _ _ _ (ix2 k (1 : Fin 2)) rfl rfl
    (ix2 k (0 : Fin 1)) (fun b hb => ?_) ?_).trans ?_
  · match b with
    | ⟨0, _⟩ => rfl
    | ⟨1, _⟩ => exact absurd rfl hb
  · rfl
  · have hi : idx_main_call0_v15 (ix2 k (0 : Fin 1)) = ix1 k :=
      funext fun a => Fin.ext (by match a with | ⟨0, _⟩ => rfl)
    rw [val_main_call0_v15_apply, hi, val_main_call0_v13_apply, val_main_call0_v10_apply, val_main_call0_v3_apply,
      val_main_call0_v2_apply, val_main_call0_c_apply, val_main_call0_v1_apply, val_main_call0_v9_apply,
      val_main_call0_c_2_apply, add_word]
    exact sel_word (4096 + k.val) (by have := k.isLt; omega) _

/-- Second call, first word of row `k`: 4096 plus the row number. -/
theorem call1_row (k : Fin 4096) :
    val_main_call1_v16 (F := Ideal) (ix2 k (0 : Fin 2)) = BitVec.ofNat 32 (4096 + k.val) := by
  unfold val_main_call1_v16
  refine (concatenate_pair_apply_left (t := S4096x2) (s₁ := S4096x1) (s₂ := S4096x1) _ _ _ _ (ix2 k (0 : Fin 2)) rfl
    (ix2 k (0 : Fin 1)) (fun b => ?_)).trans ?_
  · match b with
    | ⟨0, _⟩ => rfl
    | ⟨1, _⟩ => rfl
  · have hi : idx_main_call1_v14 (ix2 k (0 : Fin 1)) = ix1 k :=
      funext fun a => Fin.ext (by match a with | ⟨0, _⟩ => rfl)
    rw [val_main_call1_v14_apply, hi, val_main_call1_v8_apply, val_main_call1_v5_apply, val_main_call1_v3_apply,
      val_main_call1_v2_apply, val_main_call1_c_apply, val_main_call1_v1_apply, val_main_call1_v4_apply,
      val_main_call1_c_0_apply, add_word]
    exact sel_word (4096 + k.val) (by have := k.isLt; omega) _

/-- Second call, second word of row `k`: the row number. -/
theorem call1_col (k : Fin 4096) :
    val_main_call1_v16 (F := Ideal) (ix2 k (1 : Fin 2)) = BitVec.ofNat 32 k.val := by
  unfold val_main_call1_v16
  refine (concatenate_pair_apply_right (t := S4096x2) (s₁ := S4096x1) (s₂ := S4096x1) _ _ _ _ (ix2 k (1 : Fin 2)) rfl rfl
    (ix2 k (0 : Fin 1)) (fun b hb => ?_) ?_).trans ?_
  · match b with
    | ⟨0, _⟩ => rfl
    | ⟨1, _⟩ => exact absurd rfl hb
  · rfl
  · have hi : idx_main_call1_v15 (ix2 k (0 : Fin 1)) = ix1 k :=
      funext fun a => Fin.ext (by match a with | ⟨0, _⟩ => rfl)
    rw [val_main_call1_v15_apply, hi, val_main_call1_v13_apply, val_main_call1_v10_apply, val_main_call1_v0_apply,
      val_main_call1_v9_apply, val_main_call1_c_2_apply]
    exact sel_word k.val (by have := k.isLt; omega) _

/-! ## The two diagonals -/

/-- The first call reads the table at row `k` of the first half, column `k` of the second. -/
theorem v19_apply (x y : Mat) (k : Fin 4096) :
    val_main_v19 (F := Ideal) x y (ix1 k) = val_main_v18 (F := Ideal) x y (ix2 (lo k) (hi k)) := by
  unfold val_main_v19
  rw [gather_pair_apply]
  refine congrArg (val_main_v18 (F := Ideal) x y) ?_
  have h0 : min (val_main_call0_v16 (F := Ideal) (ix2 k (0 : Fin 2))).toInt.toNat 8191 = k.val := by
    rw [call0_row]; exact clamp_word _ (by have := k.isLt; omega)
  have h1 : min (val_main_call0_v16 (F := Ideal) (ix2 k (1 : Fin 2))).toInt.toNat 8191 = 4096 + k.val := by
    rw [call0_col]; exact clamp_word _ (by have := k.isLt; omega)
  funext a
  match a with
  | ⟨0, _⟩ => exact Fin.ext h0
  | ⟨1, _⟩ => exact Fin.ext h1

/-- The second call reads the table at row `k` of the second half, column `k` of the first. -/
theorem v20_apply (x y : Mat) (k : Fin 4096) :
    val_main_v20 (F := Ideal) x y (ix1 k) = val_main_v18 (F := Ideal) x y (ix2 (hi k) (lo k)) := by
  unfold val_main_v20
  rw [gather_pair_apply]
  refine congrArg (val_main_v18 (F := Ideal) x y) ?_
  have h0 : min (val_main_call1_v16 (F := Ideal) (ix2 k (0 : Fin 2))).toInt.toNat 8191 = 4096 + k.val := by
    rw [call1_row]; exact clamp_word _ (by have := k.isLt; omega)
  have h1 : min (val_main_call1_v16 (F := Ideal) (ix2 k (1 : Fin 2))).toInt.toNat 8191 = k.val := by
    rw [call1_col]; exact clamp_word _ (by have := k.isLt; omega)
  funext a
  match a with
  | ⟨0, _⟩ => exact Fin.ext h0
  | ⟨1, _⟩ => exact Fin.ext h1

end Cert.RefLoss

end
-- ==== Proof.RefMask.lean ====
/-
  The reference's mask: which pairs of rows of the 8192 × 8192 table belong to different halves.

  The row number's "at least 4096", converted to a number, is 0 on the first half and 1 on the second; the mask at
  `(a, b)` is "the number of `a` differs from the number of `b`", converted to a number: 0 when the two rows are in
  the same half and 1 when they are not.
-/
import proofs.«141112_j84318797955094_2_alg».proof.Proof.RefReadP
import proofs.«141112_j84318797955094_2_alg».proof.Proof.RefWords
import Idealize.ShloMosaic.Lib.ValueIdx
import Idealize.ShloMosaic.PureOps.Ideal.Laws

noncomputable section

namespace Cert.RefLoss

open Cert.ReferenceIdeal Cert.ReferenceIdeal.Gen Cert.ReferenceIdeal.ReadP
open Idealize.ShloMosaic Idealize.ShloMosaic.ValueIdx

/-- The half's number is 0 on the first half … -/
theorem v28_lo (k : Fin 4096) : val_main_v28 (F := Ideal) (ix1 (lo k)) = 0 := by
  rw [val_main_v28_apply, val_main_v27_apply, val_main_v25_apply, val_main_v26_apply, val_main_c_apply]
  exact (congrArg (FloatOps.uitofp (F := Ideal) .f32) (ge_lo k.val k.isLt)).trans bit0

/-- … and 1 on the second. -/
theorem v28_hi (k : Fin 4096) : val_main_v28 (F := Ideal) (ix1 (hi k)) = 1 := by
  rw [val_main_v28_apply, val_main_v27_apply, val_main_v25_apply, val_main_v26_apply, val_main_c_apply]
  exact (congrArg (FloatOps.uitofp (F := Ideal) .f32)
    (ge_hi (4096 + k.val) (by omega) (by have := k.isLt; omega))).trans bit1

/-- The mask at `(a, b)`: "the two rows' numbers differ", as a number. -/
theorem v34_apply (a b : Fin 8192) :
    val_main_v34 (F := Ideal) (ix2 a b)
      = FloatOps.uitofp (F := Ideal) .f32
          (FloatOps.cmpf (F := Ideal) (φ := .f32) .une (val_main_v28 (F := Ideal) (ix1 a)) (val_main_v28 (F := Ideal) (ix1 b))) := by
  have ha : idx_main_v29 (idx_main_v31 (ix2 a b)) = ix1 a :=
    funext fun c => Fin.ext (by match c with | ⟨0, _⟩ => rfl)
  have hb : idx_main_v30 (idx_main_v32 (ix2 a b)) = ix1 b :=
    funext fun c => Fin.ext (by match c with | ⟨0, _⟩ => rfl)
  rw [val_main_v34_apply, val_main_v33_apply, val_main_v31_apply, val_main_v29_apply, val_main_v32_apply,
    val_main_v30_apply, ha, hb]

/-- Two rows of the first half: 0. -/
theorem v34_lo_lo (k j : Fin 4096) : val_main_v34 (F := Ideal) (ix2 (lo k) (lo j)) = 0 := by
  rw [v34_apply, v28_lo, v28_lo, ne_00, bit0]
/-- A row of the first half and one of the second: 1. -/
theorem v34_lo_hi (k j : Fin 4096) : val_main_v34 (F := Ideal) (ix2 (lo k) (hi j)) = 1 := by
  rw [v34_apply, v28_lo, v28_hi, ne_01, bit1]
/-- A row of the second half and one of the first: 1. -/
theorem v34_hi_lo (k j : Fin 4096) : val_main_v34 (F := Ideal) (ix2 (hi k) (lo j)) = 1 := by
  rw [v34_apply, v28_hi, v28_lo, ne_10, bit1]
/-- Two rows of the second half: 0. -/
theorem v34_hi_hi (k j : Fin 4096) : val_main_v34 (F := Ideal) (ix2 (hi k) (hi j)) = 0 := by
  rw [v34_apply, v28_hi, v28_hi, ne_11, bit0]

end Cert.RefLoss

end
-- ==== Proof.RefLoss.lean ====
/-
  The reference computes the loss of the specification.

  Rows `k` and 4096 + `k` of the stacked directions are the matching pair; the two diagonals the reference reads off
  its table of inner products are both `sim x y k k`, so its numerators are `num x y k` on both halves. In the masked
  row sums the terms of a row's own half are `0 · _ = 0` and those of the other half are `1 · exp (s / ½)`, and
  `s / ½ = s · 2`: a row of the first half sums the weights of row `k` of the 4096 × 4096 table, a row of the second
  half those of column `k`. The 8192 values `-log (numerator / row sum)` are therefore the row losses followed by the
  column losses; their total, from the zero word, over 8192, is the loss.

  Nothing here asks the inputs to be finite: only `0 + s = s`, `0 · s = 0`, `1 · s = s`, and the regrouping of a finite
  sum into its two halves.
-/
import proofs.«141112_j84318797955094_2_alg».proof.Proof.RefReadP
import proofs.«141112_j84318797955094_2_alg».proof.Proof.Spec
import proofs.«141112_j84318797955094_2_alg».proof.Proof.RefWords
import proofs.«141112_j84318797955094_2_alg».proof.Proof.RefDir
import proofs.«141112_j84318797955094_2_alg».proof.Proof.RefGather
import proofs.«141112_j84318797955094_2_alg».proof.Proof.RefMask
import Idealize.ShloMosaic.Lib.ValueIdx
import Idealize.ShloMosaic.Lib.Pipeline.Value
import Idealize.ShloMosaic.PureOps.Ideal.Laws

noncomputable section

open scoped BigOperators

namespace Cert.RefLoss

open Cert.ReferenceIdeal Cert.ReferenceIdeal.Gen Cert.ReferenceIdeal.ReadP Cert.Spec
open Idealize.ShloMosaic Idealize.ShloMosaic.ValueIdx

/-! ## The numerators -/

/-- The joined diagonals, first half: the matching pair's similarity. -/
theorem v21_lo (x y : Mat) (k : Fin 4096) :
    val_main_v21 (F := Ideal) x y (ix1 (lo k)) = sim x y k k := by
  unfold val_main_v21
  refine (concatenate_pair_apply_left (t := S8192) (s₁ := S4096) (s₂ := S4096) _ _ _ _ (ix1 (lo k)) rfl
    (ix1 k) (fun b => ?_)).trans ?_
  · match b with
    | ⟨0, _⟩ => rfl
  · rw [v19_apply, v18_lo_hi]

/-- The joined diagonals, second half: the matching pair's similarity again. -/
theorem v21_hi (x y : Mat) (k : Fin 4096) :
    val_main_v21 (F := Ideal) x y (ix1 (hi k)) = sim x y k k := by
  unfold val_main_v21
  refine (concatenate_pair_apply_right (t := S8192) (s₁ := S4096) (s₂ := S4096) _ _ _ _ (ix1 (hi k)) rfl rfl
    (ix1 k) (fun b hb => ?_) ?_).trans ?_
  · match b with
    | ⟨0, _⟩ => exact absurd rfl hb
  · show k.val + 4096 = 4096 + k.val
    omega
  · rw [v20_apply, v18_hi_lo]

/-- The numerator on the first half … -/
theorem v24_lo (x y : Mat) (k : Fin 4096) :
    val_main_v24 (F := Ideal) x y (ix1 (lo k)) = num x y k := by
  rw [val_main_v24_apply, val_main_v23_apply, val_main_v22_apply, val_main_cst_3_apply, v21_lo]
  simp only [Ideal.hostUnary_exp_def, Ideal.hostDivf_def, Ideal.ofBits_def]
  rfl

/-- … and on the second. -/
theorem v24_hi (x y : Mat) (k : Fin 4096) :
    val_main_v24 (F := Ideal) x y (ix1 (hi k)) = num x y k := by
  rw [val_main_v24_apply, val_main_v23_apply, val_main_v22_apply, val_main_cst_3_apply, v21_hi]
  simp only [Ideal.hostUnary_exp_def, Ideal.hostDivf_def, Ideal.ofBits_def]
  rfl

/-! ## The masked row sums -/

/-- A masked term: the mask times the exponential of twice the inner product. -/
theorem v38_apply (x y : Mat) (a b : Fin 8192) :
    val_main_v38 (F := Ideal) x y (ix2 a b)
      = val_main_v34 (F := Ideal) (ix2 a b) * Ideal.exp (val_main_v18 (F := Ideal) x y (ix2 a b) * two) := by
  rw [val_main_v38_apply, val_main_v37_apply, val_main_v36_apply, val_main_v35_apply, val_main_cst_4_apply]
  simp only [Ideal.mulf_def, Ideal.hostUnary_exp_def, Ideal.hostDivf_def, Ideal.ofBits_def]
  rw [show Ideal.ofBits .f32 0x3F000000#32 = half from rfl, div_half]

/-- A row of the first half sums the weights of its row of the table. -/
theorem v39_lo (x y : Mat) (k : Fin 4096) :
    val_main_v39 (F := Ideal) x y (ix1 (lo k)) = rowSum x y k := by
  have hidx : ∀ b : Fin 8192, idx_main_v39 (ix1 (lo k)) b = ix2 (lo k) b := fun b =>
    funext fun c => Fin.ext (by match c with | ⟨0, _⟩ => rfl | ⟨1, _⟩ => rfl)
  have h1 : ∀ j : Fin 4096, val_main_v38 (F := Ideal) x y (ix2 (lo k) (lo j)) = 0 := fun j => by
    rw [v38_apply, v34_lo_lo, zero_mul]
  have h2 : ∀ j : Fin 4096, val_main_v38 (F := Ideal) x y (ix2 (lo k) (hi j)) = wt x y k j := fun j => by
    rw [v38_apply, v34_lo_hi, one_mul, v18_lo_hi]; rfl
  have e1 : (∑ j : Fin 4096, val_main_v38 (F := Ideal) x y (ix2 (lo k) (lo j))) = 0 := by
    rw [Finset.sum_congr rfl (fun j _ => h1 j)]; exact Finset.sum_const_zero
  have e2 : (∑ j : Fin 4096, val_main_v38 (F := Ideal) x y (ix2 (lo k) (hi j))) = rowSum x y k :=
    Finset.sum_congr rfl (fun j _ => h2 j)
  rw [val_main_v39_apply, val_main_cst_5_apply]
  simp only [hidx, Ideal.ofBits_def, Ideal.ofBits_zero_f32, zero_add]
  rw [sum_halves]
  exact (congrArg₂ (· + ·) e1 e2).trans (zero_add _)

/-- A row of the second half sums the weights of its column of the table. -/
theorem v39_hi (x y : Mat) (k : Fin 4096) :
    val_main_v39 (F := Ideal) x y (ix1 (hi k)) = colSum x y k := by
  have hidx : ∀ b : Fin 8192, idx_main_v39 (ix1 (hi k)) b = ix2 (hi k) b := fun b =>
    funext fun c => Fin.ext (by match c with | ⟨0, _⟩ => rfl | ⟨1, _⟩ => rfl)
  have h1 : ∀ j : Fin 4096, val_main_v38 (F := Ideal) x y (ix2 (hi k) (lo j)) = wt x y j k := fun j => by
    rw [v38_apply, v34_hi_lo, one_mul, v18_hi_lo]; rfl
  have h2 : ∀ j : Fin 4096, val_main_v38 (F := Ideal) x y (ix2 (hi k) (hi j)) = 0 := fun j => by
    rw [v38_apply, v34_hi_hi, zero_mul]
  have e1 : (∑ j : Fin 4096, val_main_v38 (F := Ideal) x y (ix2 (hi k) (lo j))) = colSum x y k :=
    Finset.sum_congr rfl (fun j _ => h1 j)
  have e2 : (∑ j : Fin 4096, val_main_v38 (F := Ideal) x y (ix2 (hi k) (hi j))) = 0 := by
    rw [Finset.sum_congr rfl (fun j _ => h2 j)]; exact Finset.sum_const_zero
  rw [val_main_v39_apply, val_main_cst_5_apply]
  simp only [hidx, Ideal.ofBits_def, Ideal.ofBits_zero_f32, zero_add]
  rw [sum_halves]
  exact (congrArg₂ (· + ·) e1 e2).trans (add_zero _)

/-! ## The 8192 losses and their mean -/

/-- The first half's values are the row losses … -/
theorem v42_lo (x y : Mat) (k : Fin 4096) :
    val_main_v42 (F := Ideal) x y (ix1 (lo k)) = lossRow x y k := by
  rw [val_main_v42_apply, val_main_v41_apply, val_main_v40_apply, v24_lo, v39_lo]
  simp only [Ideal.hostNegf_def, Ideal.negf_def, Ideal.hostUnary_log_def, Ideal.hostDivf_def]
  rfl

/-- … and the second half's the column losses. -/
theorem v42_hi (x y : Mat) (k : Fin 4096) :
    val_main_v42 (F := Ideal) x y (ix1 (hi k)) = lossCol x y k := by
  rw [val_main_v42_apply, val_main_v41_apply, val_main_v40_apply, v24_hi, v39_hi]
  simp only [Ideal.hostNegf_def, Ideal.negf_def, Ideal.hostUnary_log_def, Ideal.hostDivf_def]
  rfl

/-- An index of a vector of 8192 is its one coordinate. -/
def idxEquiv1 : S8192.Idx ≃ Fin 8192 where
  toFun i := i 0
  invFun a := ix1 a
  left_inv i := (eq_ix1 i).symm
  right_inv _ := rfl

/-- A sum over the indices of a vector of 8192 is the sum over the coordinate. -/
theorem sum_idx1 {M : Type*} [AddCommMonoid M] (f : S8192.Idx → M) :
    ∑ i, f i = ∑ a : Fin 8192, f (ix1 a) := by
  rw [← Equiv.sum_comp idxEquiv1.symm f]
  rfl

/-- The total: the row losses plus the column losses. -/
theorem v43_eq (x y : Mat) :
    val_main_v43 (F := Ideal) x y ix0 = (∑ k : Fin 4096, lossRow x y k) + ∑ k : Fin 4096, lossCol x y k := by
  have e1 : (∑ k : Fin 4096, val_main_v42 (F := Ideal) x y (ix1 (lo k))) = ∑ k : Fin 4096, lossRow x y k :=
    Finset.sum_congr rfl (fun k _ => v42_lo x y k)
  have e2 : (∑ k : Fin 4096, val_main_v42 (F := Ideal) x y (ix1 (hi k))) = ∑ k : Fin 4096, lossCol x y k :=
    Finset.sum_congr rfl (fun k _ => v42_hi x y k)
  rw [val_main_v43_apply, val_main_cst_6_apply]
  simp only [Ideal.ofBits_def, Ideal.ofBits_zero_f32, zero_add]
  rw [sum_idx1, sum_halves]
  exact congrArg₂ (· + ·) e1 e2

/-- THE REFERENCE IS THE LOSS. -/
theorem ref_loss (x y : Cert.Spec.Mat) :
    Cert.ReferenceIdeal.ReadP.val_main_v44 (F := Idealize.ShloMosaic.Ideal) x y Idealize.ShloMosaic.ValueIdx.ix0
      = Cert.Spec.loss x y := by
  rw [val_main_v44_apply, val_main_cst_7_apply, v43_eq]
  simp only [Ideal.hostDivf_def, Ideal.ofBits_def]
  rfl

end Cert.RefLoss

end
-- ==== Proof.KernelPieces.lean ====
/-
  What the kernel's body leaves in each output's staging buffer at one grid point, as a value.

  The body loads its first operand's block `x0` whole, its second operand `x1` whole, and once more the 512 rows of `x1`
  that start at row 512 · i (the rows with the same numbers as `x0`'s: `sub i x1`), and stores each output once, whole. So
  each output's buffer ends at its one store's value: the row sums of the weights, their column sums, and the inner
  products of the matching pairs — each a named pure function of the loaded blocks.
-/
import proofs.«141112_j84318797955094_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.SL.Sem Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The 512 rows of the second operand that start at row 512 · i: the rows with the same numbers as the first block's. -/
abbrev sub (i : grid0.Coords) (x1 : Vec F S4096x256 .f32) : Vec F S512x256 .f32 :=
  View.ld x1 (Rect.unit (s := S4096x256) (k0_off1 i) S512x256.size (k0_off1_inb i))

/-- The first output's buffer ends at the row sums of the weights. -/
theorem out2_eq (c : Dev nD) (i : grid0.Coords) (arg1 : Memref sig .tc .vmem S512x256 .f32) (harg1 : arg1.IsWhole) (arg2 : Memref sig .tc .vmem S4096x256 .f32) (harg2 : arg2.IsWhole) (arg3 : Memref sig .tc .vmem S512x1 .f32) (harg3 : arg3.IsWhole) (arg4 : Memref sig .tc .vmem S1x1x4096 .f32) (harg4 : arg4.IsWhole) (arg5 : Memref sig .tc .vmem S512x1 .f32) (harg5 : arg5.IsWhole)
    (x0 : Vec F S512x256 .f32) (x1 : Vec F S4096x256 .f32) :
    out0_A_2 c i arg1 harg1 arg2 harg2 arg3 harg3 arg4 harg4 arg5 harg5 x0 x1 = k0_pay4 x0 x1 := by
  unfold out0_A_2
  rw [View.read_writes_eq_canon _ _ _ (cover0_A_2 c i arg1 harg1 arg2 harg2 arg3 harg3 arg4 harg4 arg5 harg5 x0 x1)]
  unfold kernelRun0_A
  dsimp only
  sl_unfold_words
  rw [View.canon_unit_zero hz2]
  simp only [View.readAt_eq_ld, harg1.read_unread, harg2.read_unread, View.ld_unit_zero (S := S512x256) hz2,
    View.ld_unit_zero (S := S4096x256) hz2]

/-- The second output's buffer ends at the column sums of the weights. -/
theorem out3_eq (c : Dev nD) (i : grid0.Coords) (arg1 : Memref sig .tc .vmem S512x256 .f32) (harg1 : arg1.IsWhole) (arg2 : Memref sig .tc .vmem S4096x256 .f32) (harg2 : arg2.IsWhole) (arg3 : Memref sig .tc .vmem S512x1 .f32) (harg3 : arg3.IsWhole) (arg4 : Memref sig .tc .vmem S1x1x4096 .f32) (harg4 : arg4.IsWhole) (arg5 : Memref sig .tc .vmem S512x1 .f32) (harg5 : arg5.IsWhole)
    (x0 : Vec F S512x256 .f32) (x1 : Vec F S4096x256 .f32) :
    out0_A_3 c i arg1 harg1 arg2 harg2 arg3 harg3 arg4 harg4 arg5 harg5 x0 x1 = k0_pay5 x0 x1 := by
  unfold out0_A_3
  rw [View.read_writes_eq_canon _ _ _ (cover0_A_3 c i arg1 harg1 arg2 harg2 arg3 harg3 arg4 harg4 arg5 harg5 x0 x1)]
  unfold kernelRun0_A
  dsimp only
  sl_unfold_words
  rw [View.canon_unit_zero hz3]
  simp only [View.readAt_eq_ld, harg1.read_unread, harg2.read_unread, View.ld_unit_zero (S := S512x256) hz2,
    View.ld_unit_zero (S := S4096x256) hz2]

/-- The third output's buffer ends at the inner products of the first block's directions with the matching block's. -/
theorem out4_eq (c : Dev nD) (i : grid0.Coords) (arg1 : Memref sig .tc .vmem S512x256 .f32) (harg1 : arg1.IsWhole) (arg2 : Memref sig .tc .vmem S4096x256 .f32) (harg2 : arg2.IsWhole) (arg3 : Memref sig .tc .vmem S512x1 .f32) (harg3 : arg3.IsWhole) (arg4 : Memref sig .tc .vmem S1x1x4096 .f32) (harg4 : arg4.IsWhole) (arg5 : Memref sig .tc .vmem S512x1 .f32) (harg5 : arg5.IsWhole)
    (x0 : Vec F S512x256 .f32) (x1 : Vec F S4096x256 .f32) :
    out0_A_4 c i arg1 harg1 arg2 harg2 arg3 harg3 arg4 harg4 arg5 harg5 x0 x1 = k0_pay1 (k0_pay2 x0) (sub i x1) (k0_pay6 (sub i x1)) := by
  unfold out0_A_4
  rw [View.read_writes_eq_canon _ _ _ (cover0_A_4 c i arg1 harg1 arg2 harg2 arg3 harg3 arg4 harg4 arg5 harg5 x0 x1)]
  unfold kernelRun0_A
  dsimp only
  sl_unfold_words
  rw [View.canon_unit_zero hz2]
  simp only [View.readAt_eq_ld, harg1.read_unread, harg2.read_unread, View.ld_unit_zero (S := S512x256) hz2]
  rfl

end Cert.KernelIdeal.Pieces

end
-- ==== Proof.LibSumsAtIndex.lean ====
/-
  Reductions and re-laid arrays read at an index given by coordinates, at the ideal values.

  A sum along the columns of an [a, b] array is, at row r, the sum over d of the entries (r, d); a sum along its rows is,
  at column j, the sum over r of the entries (r, j) (for the vector unit's reduction, which starts from nothing, and for
  the host's, which starts from an initial value). An [a, 1] column read as a vector of length a, and an [a, 1, b] array
  read as an [a, b] matrix, keep every element at its row-major position. A sum over the indices of a vector is the sum
  over its coordinate.
-/
import Idealize.ShloMosaic.Lib.Pipeline.Value
import Idealize.ShloMosaic.Lib.ValueIdx
import Idealize.ShloMosaic.PureOps.Ideal.Laws

noncomputable section

open scoped BigOperators

namespace Idealize.ShloMosaic.SumsAtIndex

open Idealize.ShloMosaic Idealize.ShloMosaic.ValueIdx

/-- The vector unit's sum along axis 1 of an [a, b] array, at row r: the sum of row r. -/
theorem rowsum_apply {a b : ℕ} (src : FVec Ideal ⟨2, ![a, b]⟩ .f32) (acc : BitVec FTy.f32.bits)
    (h : (⟨2, ![a, b]⟩ : Shape).Reduces [1] ⟨1, ![a]⟩) (hφ : FKind.Formats .f32) (hacc : acc = FKind.add.neutral .f32 hφ) (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

/-- The vector unit's sum along axis 0 of an [a, b] array, at column j: the sum of column j. -/
theorem colsum_apply {a b : ℕ} (src : FVec Ideal ⟨2, ![a, b]⟩ .f32) (acc : BitVec FTy.f32.bits)
    (h : (⟨2, ![a, b]⟩ : Shape).Reduces [0] ⟨1, ![b]⟩) (hφ : FKind.Formats .f32) (hacc : acc = FKind.add.neutral .f32 hφ) (j : Fin b) :
    multiReduction .add [0] ⟨1, ![b]⟩ src acc h hφ hacc (ix1 j) = ∑ r : Fin a, src (ix2 r j) := by
  refine (Ideal.multiReduction_add_single src acc h hφ hacc (ix1 j)).trans ?_
  refine Finset.sum_congr rfl fun r _ => congrArg src (funext fun ax => Fin.ext ?_)
  match ax with
  | ⟨0, _⟩ => rfl
  | ⟨1, _⟩ => rfl

/-- The host's sum along axis 0 of an [a, b] array from an initial value, at column j. -/
theorem hostColsum_apply {a b : ℕ} (x : (⟨2, ![a, b]⟩ : Shape).Idx → EReal) (init : EReal)
    (h' : (⟨2, ![a, b]⟩ : Shape).ReducesTo [0] ⟨1, ![b]⟩) (h : (⟨2, ![a, b]⟩ : Shape).Reduces [0] ⟨1, ![b]⟩) (j : Fin b) :
    Ideal.hostReduceAdd h' x init (ix1 j) = init + ∑ r : Fin a, x (ix2 r j) := by
  refine (Ideal.hostReduceAdd_single h' h x init (ix1 j)).trans ?_
  refine congrArg (init + ·) (Finset.sum_congr rfl fun r _ => congrArg x (funext fun ax => Fin.ext ?_))
  match ax with
  | ⟨0, _⟩ => rfl
  | ⟨1, _⟩ => rfl

/-- A sum over the indices of a vector of length a is the sum over its coordinate. -/
theorem sum_idx1 {M : Type*} [AddCommMonoid M] {a : ℕ} (f : (⟨1, ![a]⟩ : Shape).Idx → M) : ∑ i, f i = ∑ k : Fin a, f (ix1 k) := by
  let e : Fin a ≃ (⟨1, ![a]⟩ : Shape).Idx :=
    { toFun := fun k => ix1 k, invFun := fun i => i 0, left_inv := fun _ => rfl, right_inv := fun i => (eq_ix1 i).symm }
  exact (Equiv.sum_comp e f).symm

/-- The host's sum of a whole vector of length a from an initial value. -/
theorem hostTotal_apply {a : ℕ} (x : (⟨1, ![a]⟩ : Shape).Idx → EReal) (init : EReal)
    (h' : (⟨1, ![a]⟩ : Shape).ReducesTo [0] ⟨0, ![]⟩) (i : (⟨0, ![]⟩ : Shape).Idx) :
    Ideal.hostReduceAdd h' x init i = init + ∑ k : Fin a, x (ix1 k) := by
  rw [Ideal.hostReduceAdd_total h' (fun b => b.elim0) x init i, sum_idx1]

/-- An [a, 1] column read as a vector: entry i is the column's entry (i, 0). -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An [a, 1, b] array read as an [a, b] matrix: entry (i, j) is the array's entry (i, 0, j). -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Idealize.ShloMosaic.SumsAtIndex

end
-- ==== Proof.LibKeptColumn.lean ====
/-
  Two layout facts about a column kept after a row reduction (a sum with the reduced axis kept as a unit axis):
  a vector of length a cast to an [a, 1] column, and an [a, 1] column spread along the rows of an [a, b] array, each read
  at an index.
-/
import Idealize.ShloMosaic.Lib.Pipeline.Value
import Idealize.ShloMosaic.Lib.ValueIdx

noncomputable section

namespace Idealize.ShloMosaic.KeptColumn

open Idealize.ShloMosaic Idealize.ShloMosaic.ValueIdx

variable {α : Type}

/-- An `[a]` array cast to an `[a, 1]` column reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`: the unit axis is read at 0,
    the row axis at `p` (when `a = 1` the only row is row 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.KeptColumn

end
-- ==== Proof.LibRowDot.lean ====
/-
  A product of one matrix with the transpose of another, read at one entry.

  The matrix unit's contraction in which BOTH operands contract their last axis (left contracting axis 1, right
  contracting axis 1, no batch axis: `x @ w.T` with `w` kept in its (columns-of-the-result, contraction) layout),
  accumulated into the zero splat, is at the ideal values the sum over the contraction coordinate k of
  l (i, k) · r (j, k): entry (i, j) is the dot product of row i of the left operand with row j of the right one.
  The statement is over any dimension record whose six lists are those, whatever name a printed record carries.
-/
import Idealize.ShloMosaic.Lib.ValueIdx
import Idealize.ShloMosaic.PureOps.Ideal.Laws

noncomputable section

open scoped BigOperators

namespace Idealize.ShloMosaic.RowDot

open Idealize.ShloMosaic Idealize.ShloMosaic.ValueIdx

/-- Entry (i, j) of an M×K by N×K `tpu.matmul` contracting both last axes into the zero accumulator, at the ideal
    values: the dot product of the left operand's row i with the right operand's row j. -/
theorem matmul_zero_apply {M K N : Nat} {φ₁ φ₂ : FTy}
    (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (l : FVec Ideal ⟨2, ![M, K]⟩ φ₁) (r : FVec Ideal ⟨2, ![N, K]⟩ φ₂)
    (i : Fin M) (j : Fin N) :
    matmul D prec l r (constant ⟨2, ![M, N]⟩ .f32 0x00000000#32) (ix2 i j)
      = ∑ k : Fin K, l (ix2 i k) * r (ix2 j k) := by
  obtain ⟨lc, rc, ln, rn, lb, rb, wf⟩ := D
  dsimp only at hlc hrc hln hrn hlb hrb
  subst hlc hrc hln hrn hlb hrb
  refine (Ideal.matmul_constant_zero_apply _ prec l r (ix2 i j)).trans ?_
  rw [← Equiv.sum_comp (contrEquiv1 (⟨[1], [1], [0], [0], [], [], wf⟩ : DotDims ⟨2, ![M, K]⟩ ⟨2, ![N, K]⟩ ⟨2, ![M, N]⟩) K rfl rfl).symm]
  refine Finset.sum_congr rfl fun k _ => ?_
  have hk := contrEquiv1_symm_val (⟨[1], [1], [0], [0], [], [], wf⟩ : DotDims ⟨2, ![M, K]⟩ ⟨2, ![N, K]⟩ ⟨2, ![M, N]⟩) K rfl rfl k
  have el : DotDims.lhsIdx (⟨[1], [1], [0], [0], [], [], wf⟩ : DotDims ⟨2, ![M, K]⟩ ⟨2, ![N, K]⟩ ⟨2, ![M, N]⟩) (ix2 i j)
      ((contrEquiv1 (⟨[1], [1], [0], [0], [], [], wf⟩ : DotDims ⟨2, ![M, K]⟩ ⟨2, ![N, K]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [1], [0], [0], [], [], wf⟩ : DotDims ⟨2, ![M, K]⟩ ⟨2, ![N, K]⟩ ⟨2, ![M, N]⟩) (ix2 i j)
      ((contrEquiv1 (⟨[1], [1], [0], [0], [], [], wf⟩ : DotDims ⟨2, ![M, K]⟩ ⟨2, ![N, K]⟩ ⟨2, ![M, N]⟩) K rfl rfl).symm k) = ix2 j k :=
    funext fun a => Fin.ext (by
      match a with
      | ⟨0, _⟩ =>
        unfold DotDims.rhsIdx
        rw [dif_neg (by exact List.not_mem_nil), dif_pos (by exact List.mem_singleton.mpr rfl)]
        rfl
      | ⟨1, _⟩ => exact (DotDims.rhsIdx_val_of_single _ rfl _ _).trans hk)
  rw [el, er]

end Idealize.ShloMosaic.RowDot

end
-- ==== Proof.KernelPayload.lean ====
/-
  What the kernel's body computes at one grid point, read entry by entry at the ideal values.

  The body holds a block `v0` of 512 rows of the first array, the whole second array `v1` (4096 rows), and the block `v32` of
  the second array's rows with the same row numbers as `v0`'s. Each is normalized row by row (a row over the larger of
  its Euclidean length and `eps`: `Spec.dir`). The 512 × 4096 table of weights is the exponential of twice the inner products
  of `v0`'s directions with `v1`'s; the first stored value adds each of its rows, the second each of its columns, and the
  third is the inner product of each direction of `v0` with the direction of the same row of `v32`.
-/
import proofs.«141112_j84318797955094_2_alg».proof.Proof.Gen.KernelIdeal.Skeleton
import proofs.«141112_j84318797955094_2_alg».proof.Proof.Spec
import proofs.«141112_j84318797955094_2_alg».proof.Proof.LibSumsAtIndex
import proofs.«141112_j84318797955094_2_alg».proof.Proof.LibKeptColumn
import proofs.«141112_j84318797955094_2_alg».proof.Proof.LibRowDot
import Idealize.ShloMosaic.Lib.ValueLayout

noncomputable section

open scoped BigOperators

namespace Cert.KernelIdeal.Payload

open Cert.KernelIdeal Cert.KernelIdeal.Gen Idealize.ShloMosaic Idealize.ShloMosaic.ValueIdx

/-- A block of n rows normalized as the body does it — each entry over the larger of `eps` and the square root of the sum of
    its row's squares, that column kept as an [n, 1] array and spread along the rows — is `Spec.dir` entry by entry. -/
theorem normalize_apply {n : ℕ} (v : FVec Ideal ⟨2, ![n, 256]⟩ .f32) (acc : BitVec FTy.f32.bits)
    (hred : (⟨2, ![n, 256]⟩ : Shape).Reduces [1] ⟨1, ![n]⟩) (hφ : FKind.Formats .f32) (hacc : acc = FKind.add.neutral .f32 hφ)
    (hcast : (⟨1, ![n]⟩ : Shape).ShapeCasts ⟨2, ![n, 1]⟩) (hb : (⟨2, ![n, 1]⟩ : Shape).Broadcasts ⟨2, ![n, 256]⟩)
    (r : Fin n) (d : Fin 256) :
    divf v (broadcastTo ⟨2, ![n, 256]⟩ (maximumf (sqrt (shapeCast ⟨2, ![n, 1]⟩ (multiReduction .add [1] ⟨1, ![n]⟩ (mulf v v) acc hred hφ hacc) hcast))
      (broadcast ⟨2, ![n, 1]⟩ (Scalar.ofBits (F := Ideal) .f32 0x2B8CBCCC#32))) hb) (ix2 r d) = Cert.Spec.dir v r d := by
  show Ideal.div (v (ix2 r d)) (broadcastTo ⟨2, ![n, 256]⟩ _ hb (ix2 r d)) = _
  rw [KeptColumn.broadcastTo_a1_ab_apply]
  show Ideal.div (v (ix2 r d)) (max (Ideal.sqrt (shapeCast ⟨2, ![n, 1]⟩ _ hcast (ix2 r (0 : Fin 1)))) (Ideal.ofBits .f32 0x2B8CBCCC#32)) = _
  rw [KeptColumn.shapeCast_a_a1_apply, SumsAtIndex.rowsum_apply]
  rfl

/-- The first array's block, normalized. -/
theorem pay2_apply (v0 : FVec Ideal S512x256 .f32) (r : Fin 512) (d : Fin 256) :
    k0_pay2 (F := Ideal) v0 (ix2 r d) = Cert.Spec.dir v0 r d :=
  normalize_apply v0 _ _ _ _ _ _ r d

/-- The weights: entry (r, j) is the exponential of twice the inner product of direction r of the block with direction j of
    the second array. -/
theorem pay3_apply (v0 : FVec Ideal S512x256 .f32) (v1 : FVec Ideal S4096x256 .f32) (r : Fin 512) (j : Fin 4096) :
    k0_pay3 (F := Ideal) v0 v1 (ix2 r j) = Ideal.exp ((∑ d : Fin 256, Cert.Spec.dir v0 r d * Cert.Spec.dir v1 j d) * Cert.Spec.two) := by
  show Ideal.exp (matmul dot_S512x256_S4096x256_S512x4096_1_1_0_0_n_n (some .fp32) (k0_pay2 (F := Ideal) v0) _ (constant S512x4096 .f32 0x00000000#32) (ix2 r j)
      * Ideal.ofBits .f32 0x40000000#32) = _
  rw [RowDot.matmul_zero_apply dot_S512x256_S4096x256_S512x4096_1_1_0_0_n_n rfl rfl rfl rfl rfl rfl]
  refine congrArg (fun s => Ideal.exp (s * Cert.Spec.two)) (Finset.sum_congr rfl fun d _ => ?_)
  rw [pay2_apply]
  exact congrArg (Cert.Spec.dir v0 r d * ·) (normalize_apply v1 _ _ _ _ _ _ j d)

/-- The first stored value: the weights of row r, added. -/
theorem pay4_apply (v0 : FVec Ideal S512x256 .f32) (v1 : FVec Ideal S4096x256 .f32) (r : Fin 512) (u : Fin 1) :
    k0_pay4 (F := Ideal) v0 v1 (ix2 r u) = ∑ j : Fin 4096, k0_pay3 (F := Ideal) v0 v1 (ix2 r j) := by
  unfold k0_pay4
  exact (KeptColumn.shapeCast_a_a1_apply _ _ r u).trans (SumsAtIndex.rowsum_apply _ _ _ _ _ r)

/-- The second stored value: the weights of column j, added over the block's 512 rows. -/
theorem pay5_apply (v0 : FVec Ideal S512x256 .f32) (v1 : FVec Ideal S4096x256 .f32) (u u' : Fin 1) (j : Fin 4096) :
    k0_pay5 (F := Ideal) v0 v1 (ix3 u u' j) = ∑ r : Fin 512, k0_pay3 (F := Ideal) v0 v1 (ix2 r j) := by
  unfold k0_pay5
  exact (shapeCast_ab_1ab_apply _ _ u u' j).trans ((shapeCast_a_1a_apply _ _ u' j).trans (SumsAtIndex.colsum_apply _ _ _ _ _ j))

/-- The length of each row of the matching block (before the floor at `eps`). -/
theorem pay6_apply (v32 : FVec Ideal S512x256 .f32) (r : Fin 512) (u : Fin 1) :
    k0_pay6 (F := Ideal) v32 (ix2 r u) = Ideal.sqrt (∑ d : Fin 256, v32 (ix2 r d) * v32 (ix2 r d)) := by
  unfold k0_pay6
  exact congrArg Ideal.sqrt ((KeptColumn.shapeCast_a_a1_apply _ _ r u).trans (SumsAtIndex.rowsum_apply _ _ _ _ _ r))

/-- The third stored value: the inner product of direction r of the first block with direction r of the matching block. -/
theorem pay1_apply (v0 : FVec Ideal S512x256 .f32) (v32 : FVec Ideal S512x256 .f32) (r : Fin 512) (u : Fin 1) :
    k0_pay1 (F := Ideal) (k0_pay2 (F := Ideal) v0) v32 (k0_pay6 (F := Ideal) v32) (ix2 r u) = ∑ d : Fin 256, Cert.Spec.dir v0 r d * Cert.Spec.dir v32 r d := by
  unfold k0_pay1
  refine ((KeptColumn.shapeCast_a_a1_apply _ _ r u).trans (SumsAtIndex.rowsum_apply _ _ _ _ _ r)).trans ?_
  refine Finset.sum_congr rfl fun d _ => ?_
  show k0_pay2 (F := Ideal) v0 (ix2 r d) * Ideal.div (v32 (ix2 r d)) (broadcastTo S512x256 _ broadcasts_S512x1_S512x256 (ix2 r d)) = _
  rw [pay2_apply, KeptColumn.broadcastTo_a1_ab_apply]
  show _ * Ideal.div (v32 (ix2 r d)) (max (k0_pay6 (F := Ideal) v32 (ix2 r (0 : Fin 1))) (Ideal.ofBits .f32 0x2B8CBCCC#32)) = _
  rw [pay6_apply]
  rfl

/-! ## One grid point, in the arrays' own rows

At the grid point with block number `b` the first block holds rows `b · 512 + r` of the first array `X`, the second operand is
the whole second array `Y`, and the matching block holds rows `b · 512 + r` of `Y`. -/

/-- Row `b · 512 + r` of a 4096-row array. -/
abbrev rowAt (b : ℕ) (hb : b < 8) (r : Fin 512) : Fin 4096 := ⟨b * 512 + r.val, by have := r.isLt; omega⟩

/-- The weights at a point are the table's weights in rows `b · 512 + r`. -/
theorem point_wt (X Y : Cert.Spec.Mat) (x0 : FVec Ideal S512x256 .f32) (x1 : FVec Ideal S4096x256 .f32) (b : ℕ) (hb : b < 8)
    (h0 : ∀ (r : Fin 512) (d : Fin 256), x0 (ix2 r d) = X (ix2 (rowAt b hb r) d))
    (h1 : ∀ (j : Fin 4096) (d : Fin 256), x1 (ix2 j d) = Y (ix2 j d)) (r : Fin 512) (j : Fin 4096) :
    k0_pay3 (F := Ideal) x0 x1 (ix2 r j) = Cert.Spec.wt X Y (rowAt b hb r) j := by
  rw [pay3_apply]
  unfold Cert.Spec.wt Cert.Spec.sim
  refine congrArg (fun s => Ideal.exp (s * Cert.Spec.two)) (Finset.sum_congr rfl fun d _ => ?_)
  rw [Cert.Spec.dir_congr x0 X r (rowAt b hb r) (h0 r) d, Cert.Spec.dir_congr x1 Y j j (h1 j) d]

/-- The first stored value at (r, ·) is the row sum of row `b · 512 + r`. -/
theorem point_rowsum (X Y : Cert.Spec.Mat) (x0 : FVec Ideal S512x256 .f32) (x1 : FVec Ideal S4096x256 .f32) (b : ℕ) (hb : b < 8)
    (h0 : ∀ (r : Fin 512) (d : Fin 256), x0 (ix2 r d) = X (ix2 (rowAt b hb r) d))
    (h1 : ∀ (j : Fin 4096) (d : Fin 256), x1 (ix2 j d) = Y (ix2 j d)) (r : Fin 512) (u : Fin 1) :
    k0_pay4 (F := Ideal) x0 x1 (ix2 r u) = Cert.Spec.rowSum X Y (rowAt b hb r) := by
  rw [pay4_apply]
  unfold Cert.Spec.rowSum
  exact Finset.sum_congr rfl fun j _ => point_wt X Y x0 x1 b hb h0 h1 r j

/-- The second stored value at (·, ·, j) is column j's weights added over the point's 512 rows. -/
theorem point_colsum (X Y : Cert.Spec.Mat) (x0 : FVec Ideal S512x256 .f32) (x1 : FVec Ideal S4096x256 .f32) (b : ℕ) (hb : b < 8)
    (h0 : ∀ (r : Fin 512) (d : Fin 256), x0 (ix2 r d) = X (ix2 (rowAt b hb r) d))
    (h1 : ∀ (j : Fin 4096) (d : Fin 256), x1 (ix2 j d) = Y (ix2 j d)) (u u' : Fin 1) (j : Fin 4096) :
    k0_pay5 (F := Ideal) x0 x1 (ix3 u u' j) = ∑ r : Fin 512, Cert.Spec.wt X Y (rowAt b hb r) j := by
  rw [pay5_apply]
  exact Finset.sum_congr rfl fun r _ => point_wt X Y x0 x1 b hb h0 h1 r j

/-- The third stored value at (r, ·) is the similarity of the matching pair `b · 512 + r`. -/
theorem point_pos (X Y : Cert.Spec.Mat) (x0 x32 : FVec Ideal S512x256 .f32) (b : ℕ) (hb : b < 8)
    (h0 : ∀ (r : Fin 512) (d : Fin 256), x0 (ix2 r d) = X (ix2 (rowAt b hb r) d))
    (h32 : ∀ (r : Fin 512) (d : Fin 256), x32 (ix2 r d) = Y (ix2 (rowAt b hb r) d)) (r : Fin 512) (u : Fin 1) :
    k0_pay1 (F := Ideal) (k0_pay2 (F := Ideal) x0) x32 (k0_pay6 (F := Ideal) x32) (ix2 r u) = Cert.Spec.sim X Y (rowAt b hb r) (rowAt b hb r) := by
  rw [pay1_apply]
  unfold Cert.Spec.sim
  refine Finset.sum_congr rfl fun d _ => ?_
  rw [Cert.Spec.dir_congr x0 X r (rowAt b hb r) (h0 r) d, Cert.Spec.dir_congr x32 Y r (rowAt b hb r) (h32 r) d]

end Cert.KernelIdeal.Payload

end
-- ==== Proof.KernelArrays.lean ====
/-
  The three arrays the kernel's region writes, each as one function of the two argument arrays.

  The grid has 8 points; point t loads rows t · 512 … t · 512 + 511 of the first argument `X`, the whole second argument `Y`,
  and once more the same-numbered 512 rows of `Y`. It writes block t of each output: rows t · 512 … of the column of row
  sums, plane t of the [8, 1, 4096] array of column sums, rows t · 512 … of the column of matching-pair similarities. The
  blocks tile each array (row k lies in block k / 512, plane b is block b), so each array ends holding one function of `X`
  and `Y` at every index.
-/
import proofs.«141112_j84318797955094_2_alg».proof.Proof.KernelPieces
import proofs.«141112_j84318797955094_2_alg».proof.Proof.KernelPayload
import Idealize.ShloMosaic.Lib.Pipeline.Value

set_option maxRecDepth 16384

noncomputable section

open scoped BigOperators

namespace Cert.KernelIdeal.Arrays

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The first argument array on core `c`. -/
abbrev X (c : Dev nD) : Cert.Spec.Mat := m ((c : Thread nD τ).loc main_arg0)
/-- The second argument array on core `c`. -/
abbrev Y (c : Dev nD) : Cert.Spec.Mat := m ((c : Thread nD τ).loc main_arg1)

/-- The grid has 8 points. -/
theorem tlt (t : Fin cfg0.N) : t.val < 8 := by
  have := t.isLt; have hN : cfg0.N = 8 := N_0; omega

/-- Where each window's block sits at point t: the first operand's and the three outputs' block number is t, the second
    operand's block is the whole array; and the grid coordinate of point t is t. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0
    ∧ win0_4.index t (0 : Fin 2) = t.val ∧ win0_4.index t (1 : Fin 2) = 0
    ∧ (grid0.coords t (0 : Fin 1)).val = t.val :=
  (by decide +kernel : ∀ t : Fin grid0.N, _)

/-! ## The loaded blocks are rows of the argument arrays -/

/-- The first operand's block at point t holds rows t · 512 + r of `X`. -/
theorem blk0_apply (c : Dev nD) (t : Fin cfg0.N) (r : Fin 512) (d : Fin 256) :
    (iblk m c 0 t : FVec Ideal S512x256 .f32) (ix2 r d) = X m c (ix2 (Payload.rowAt t.val (tlt t) r) d) := by
  obtain ⟨e0, e1, -⟩ := idx_facts t
  unfold iblk
  rw [View.read_apply]
  show m ((c : Thread nD τ).loc main_arg0) _ = m ((c : Thread nD τ).loc main_arg0) _
  refine congrArg (m ((c : Thread nD τ).loc main_arg0)) (funext fun a => Fin.ext ?_)
  match a with
  | ⟨0, _⟩ => show win0_0.index t (0 : Fin 2) * 512 + 1 * r.val = t.val * 512 + r.val; rw [e0]; omega
  | ⟨1, _⟩ => show win0_0.index t (1 : Fin 2) * 256 + 1 * d.val = d.val; rw [e1]; omega

/-- The second operand's block at every point is the whole of `Y`. -/
theorem blk1_apply (c : Dev nD) (t : Fin cfg0.N) (j : Fin 4096) (d : Fin 256) :
    (iblk m c 1 t : FVec Ideal S4096x256 .f32) (ix2 j d) = Y m c (ix2 j d) := by
  obtain ⟨-, -, e0, e1, -⟩ := idx_facts t
  unfold iblk
  rw [View.read_apply]
  show m ((c : Thread nD τ).loc main_arg1) _ = m ((c : Thread nD τ).loc main_arg1) _
  refine congrArg (m ((c : Thread nD τ).loc main_arg1)) (funext fun a => Fin.ext ?_)
  match a with
  | ⟨0, _⟩ => show win0_1.index t (0 : Fin 2) * 4096 + 1 * j.val = j.val; rw [e0]; omega
  | ⟨1, _⟩ => show win0_1.index t (1 : Fin 2) * 256 + 1 * d.val = d.val; rw [e1]; omega

/-- The 512 rows of an array `x1` that start at row 512 · i hold its rows 512 · i + r. -/
theorem sub_apply (i : grid0.Coords) (x1 : FVec Ideal S4096x256 .f32) (r : Fin 512) (d : Fin 256) (k : Fin 4096)
    (hk : k.val = 512 * (i 0).val + r.val) : Pieces.sub (F := Ideal) i x1 (ix2 r d) = x1 (ix2 k d) := by
  show x1 _ = x1 _
  refine congrArg x1 (funext fun a => Fin.ext ?_)
  match a with
  | ⟨0, _⟩ => show k0_off1 i (0 : Fin 2) + 1 * r.val = k.val; rw [k0_off1_eq]; show 512 * (i 0).val + 1 * r.val = k.val; omega
  | ⟨1, _⟩ => show k0_off1 i (1 : Fin 2) + 1 * d.val = d.val; rw [k0_off1_eq]; show 0 + 1 * d.val = d.val; omega

/-- The matching block at point t holds rows t · 512 + r of `Y`. -/
theorem blk32_apply (c : Dev nD) (t : Fin cfg0.N) (r : Fin 512) (d : Fin 256) :
    Pieces.sub (F := Ideal) (grid0.coords t) (iblk m c 1 t : FVec Ideal S4096x256 .f32) (ix2 r d) = Y m c (ix2 (Payload.rowAt t.val (tlt t) r) d) := by
  have eg : (grid0.coords t (0 : Fin 1)).val = t.val := (idx_facts t).2.2.2.2.2.2.2.2.2.2.2
  rw [sub_apply (grid0.coords t) (iblk m c 1 t) r d (Payload.rowAt t.val (tlt t) r) (by show t.val * 512 + r.val = 512 * (grid0.coords t (0 : Fin 1)).val + r.val; rw [eg]; omega)]
  exact blk1_apply m c t _ d

/-! ## The three output arrays -/

/-- The column of row sums. -/
def G2 (X Y : Cert.Spec.Mat) : FVec Ideal S4096x1 .f32 := fun i => Cert.Spec.rowSum X Y ⟨(i 0).val, idx2_lt0 i⟩
/-- The per-block column sums: plane b holds, at column j, the weights of rows b · 512 + r added over r. -/
def G3 (X Y : Cert.Spec.Mat) : FVec Ideal S8x1x4096 .f32 := fun i =>
  ∑ r : Fin 512, Cert.Spec.wt X Y ⟨(i 0).val * 512 + r.val, by have h : (i 0).val < 8 := (i 0).isLt; have := r.isLt; omega⟩ ⟨(i 2).val, (i 2).isLt⟩
/-- The column of matching-pair similarities. -/
def G4 (X Y : Cert.Spec.Mat) : FVec Ideal S4096x1 .f32 := fun i =>
  Cert.Spec.sim X Y ⟨(i 0).val, idx2_lt0 i⟩ ⟨(i 0).val, idx2_lt0 i⟩

/-- What point t writes back to the first output is block t of `G2`. -/
theorem flushed2_eq (c : Dev nD) (t : Fin cfg0.N) :
    (dats m 0 c).flushed 2 t = ((cfg0.win 2).blk t).view.read (Elt Ideal) (G2 (X m c) (Y m c)) := by
  show (cfg0.win 2).cut (grid0.coords t) ((dats m 0 c).after 2 t) = _
  rw [after0_2]
  have e : (outsAt0 m c t).1 = k0_pay4 (iblk m c 0 t) (iblk m c 1 t) := by
    unfold outsAt0
    dsimp only
    exact Pieces.out2_eq c (grid0.coords t) (ms0_0 t) (hs0_0 t) (ms0_1 t) (hs0_1 t) (ms0_2 t) (hs0_2 t) (ms0_3 t) (hs0_3 t) (ms0_4 t) (hs0_4 t) (iblk m c 0 t) (iblk m c 1 t)
  rw [e]
  refine funext fun (j : S512x1.Idx) => ?_
  obtain ⟨r, u, rfl⟩ : ∃ (r : Fin 512) (u : Fin 1), j = ix2 r u := ⟨j 0, j 1, eq_ix2 j⟩
  show k0_pay4 (iblk m c 0 t) (iblk m c 1 t) (ix2 r u) = G2 (X m c) (Y m c) (((cfg0.win 2).blk t).view.emb (ix2 r u))
  refine (Payload.point_rowsum (X m c) (Y m c) (iblk m c 0 t) (iblk m c 1 t) t.val (tlt t) (blk0_apply m c t) (blk1_apply m c t) r u).trans ?_
  unfold G2
  refine congrArg (Cert.Spec.rowSum (X m c) (Y m c)) (Fin.ext ?_)
  show t.val * 512 + r.val = win0_2.index t (0 : Fin 2) * 512 + 1 * r.val
  rw [(idx_facts t).2.2.2.2.1]; omega

/-- What point t writes back to the second output is plane t of `G3`. -/
theorem flushed3_eq (c : Dev nD) (t : Fin cfg0.N) :
    (dats m 0 c).flushed 3 t = ((cfg0.win 3).blk t).view.read (Elt Ideal) (G3 (X m c) (Y m c)) := by
  show (cfg0.win 3).cut (grid0.coords t) ((dats m 0 c).after 3 t) = _
  rw [after0_3]
  have e : (outsAt0 m c t).2.1 = k0_pay5 (iblk m c 0 t) (iblk m c 1 t) := by
    unfold outsAt0
    dsimp only
    exact Pieces.out3_eq c (grid0.coords t) (ms0_0 t) (hs0_0 t) (ms0_1 t) (hs0_1 t) (ms0_2 t) (hs0_2 t) (ms0_3 t) (hs0_3 t) (ms0_4 t) (hs0_4 t) (iblk m c 0 t) (iblk m c 1 t)
  rw [e]
  refine funext fun (j : S1x1x4096.Idx) => ?_
  obtain ⟨u, u', q, rfl⟩ : ∃ (u u' : Fin 1) (q : Fin 4096), j = ix3 u u' q := ⟨j 0, j 1, j 2, eq_ix3 j⟩
  show k0_pay5 (iblk m c 0 t) (iblk m c 1 t) (ix3 u u' q) = G3 (X m c) (Y m c) (((cfg0.win 3).blk t).view.emb (ix3 u u' q))
  refine (Payload.point_colsum (X m c) (Y m c) (iblk m c 0 t) (iblk m c 1 t) t.val (tlt t) (blk0_apply m c t) (blk1_apply m c t) u u' q).trans ?_
  unfold G3
  obtain ⟨-, -, -, -, -, -, e0, -, e2, -⟩ := idx_facts t
  have hu : u.val = 0 := by omega
  refine Finset.sum_congr rfl fun r _ => congrArg₂ (Cert.Spec.wt (X m c) (Y m c)) (Fin.ext ?_) (Fin.ext ?_)
  · show t.val * 512 + r.val = (win0_3.index t (0 : Fin 3) * 1 + 1 * u.val) * 512 + r.val
    rw [e0, hu]; omega
  · show q.val = win0_3.index t (2 : Fin 3) * 4096 + 1 * q.val
    rw [e2]; omega

/-- What point t writes back to the third output is block t of `G4`. -/
theorem flushed4_eq (c : Dev nD) (t : Fin cfg0.N) :
    (dats m 0 c).flushed 4 t = ((cfg0.win 4).blk t).view.read (Elt Ideal) (G4 (X m c) (Y m c)) := by
  show (cfg0.win 4).cut (grid0.coords t) ((dats m 0 c).after 4 t) = _
  rw [after0_4]
  have e : (outsAt0 m c t).2.2 = k0_pay1 (k0_pay2 (iblk m c 0 t)) (Pieces.sub (grid0.coords t) (iblk m c 1 t)) (k0_pay6 (Pieces.sub (grid0.coords t) (iblk m c 1 t))) := by
    unfold outsAt0
    dsimp only
    exact Pieces.out4_eq c (grid0.coords t) (ms0_0 t) (hs0_0 t) (ms0_1 t) (hs0_1 t) (ms0_2 t) (hs0_2 t) (ms0_3 t) (hs0_3 t) (ms0_4 t) (hs0_4 t) (iblk m c 0 t) (iblk m c 1 t)
  rw [e]
  refine funext fun (j : S512x1.Idx) => ?_
  obtain ⟨r, u, rfl⟩ : ∃ (r : Fin 512) (u : Fin 1), j = ix2 r u := ⟨j 0, j 1, eq_ix2 j⟩
  show k0_pay1 (k0_pay2 (iblk m c 0 t)) (Pieces.sub (grid0.coords t) (iblk m c 1 t)) (k0_pay6 (Pieces.sub (grid0.coords t) (iblk m c 1 t))) (ix2 r u)
    = G4 (X m c) (Y m c) (((cfg0.win 4).blk t).view.emb (ix2 r u))
  refine (Payload.point_pos (X m c) (Y m c) (iblk m c 0 t) (Pieces.sub (grid0.coords t) (iblk m c 1 t)) t.val (tlt t) (blk0_apply m c t) (blk32_apply m c t) r u).trans ?_
  unfold G4
  have hk : t.val * 512 + r.val = win0_4.index t (0 : Fin 2) * 512 + 1 * r.val := by
    rw [(idx_facts t).2.2.2.2.2.2.2.2.2.1]; omega
  exact congrArg₂ (Cert.Spec.sim (X m c) (Y m c)) (Fin.ext hk) (Fin.ext hk)

/-! ## The blocks tile each array -/

theorem mem_blk2 (t : Fin cfg0.N) (i : S4096x1.Idx) :
    i ∈ ((cfg0.win 2).blk t).view.set ↔ ∀ a : Fin 2, win0_2.index t a * S512x1.size a ≤ (i a).val ∧ (i a).val < win0_2.index t a * S512x1.size a + S512x1.size a := by
  show i ∈ ((View.whole main_v0_0).slice (win0_2.rect t)).set ↔ _
  rw [View.set_slice_whole, Rect.mem_set_unit]
  exact Iff.rfl

theorem mem_blk3 (t : Fin cfg0.N) (i : S8x1x4096.Idx) :
    i ∈ ((cfg0.win 3).blk t).view.set ↔ ∀ a : Fin 3, win0_3.index t a * S1x1x4096.size a ≤ (i a).val ∧ (i a).val < win0_3.index t a * S1x1x4096.size a + S1x1x4096.size a := by
  show i ∈ ((View.whole main_v0_1).slice (win0_3.rect t)).set ↔ _
  rw [View.set_slice_whole, Rect.mem_set_unit]
  exact Iff.rfl

theorem mem_blk4 (t : Fin cfg0.N) (i : S4096x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v0_2).slice (win0_4.rect t)).set ↔ _
  rw [View.set_slice_whole, Rect.mem_set_unit]
  exact Iff.rfl

/-- Row k of the first output lies in block k / 512. -/
theorem cover2 (i : S4096x1.Idx) : ∃ t : Fin cfg0.N, (cfg0.win 2).flush t = true ∧ i ∈ ((cfg0.win 2).blk t).view.set := by
  have hi0 : (i 0).val < 4096 := (i 0).isLt
  have hi1 : (i 1).val < 1 := (i 1).isLt
  have hN : cfg0.N = 8 := N_0
  have hq : (i 0).val / 512 < cfg0.N := by omega
  refine ⟨⟨(i 0).val / 512, hq⟩, flush0_2 _, ?_⟩
  rw [mem_blk2]
  have e0 : win0_2.index ⟨(i 0).val / 512, hq⟩ (0 : Fin 2) = (i 0).val / 512 := (idx_facts ⟨(i 0).val / 512, hq⟩).2.2.2.2.1
  have e1 : win0_2.index ⟨(i 0).val / 512, hq⟩ (1 : Fin 2) = 0 := (idx_facts ⟨(i 0).val / 512, hq⟩).2.2.2.2.2.1
  intro a
  match a with
  | ⟨0, _⟩ =>
    show win0_2.index ⟨(i 0).val / 512, hq⟩ (0 : Fin 2) * 512 ≤ (i 0).val ∧ (i 0).val < win0_2.index ⟨(i 0).val / 512, hq⟩ (0 : Fin 2) * 512 + 512
    rw [e0]; omega
  | ⟨1, _⟩ =>
    show win0_2.index ⟨(i 0).val / 512, hq⟩ (1 : Fin 2) * 1 ≤ (i 1).val ∧ (i 1).val < win0_2.index ⟨(i 0).val / 512, hq⟩ (1 : Fin 2) * 1 + 1
    rw [e1]; omega

/-- Plane b of the second output is block b. -/
theorem cover3 (i : S8x1x4096.Idx) : ∃ t : Fin cfg0.N, (cfg0.win 3).flush t = true ∧ i ∈ ((cfg0.win 3).blk t).view.set := by
  have hi0 : (i 0).val < 8 := (i 0).isLt
  have hi1 : (i 1).val < 1 := (i 1).isLt
  have hi2 : (i 2).val < 4096 := (i 2).isLt
  have hN : cfg0.N = 8 := N_0
  have hq : (i 0).val < cfg0.N := by omega
  refine ⟨⟨(i 0).val, hq⟩, flush0_3 _, ?_⟩
  rw [mem_blk3]
  have e0 : win0_3.index ⟨(i 0).val, hq⟩ (0 : Fin 3) = (i 0).val := (idx_facts ⟨(i 0).val, hq⟩).2.2.2.2.2.2.1
  have e1 : win0_3.index ⟨(i 0).val, hq⟩ (1 : Fin 3) = 0 := (idx_facts ⟨(i 0).val, hq⟩).2.2.2.2.2.2.2.1
  have e2 : win0_3.index ⟨(i 0).val, hq⟩ (2 : Fin 3) = 0 := (idx_facts ⟨(i 0).val, hq⟩).2.2.2.2.2.2.2.2.1
  intro a
  match a with
  | ⟨0, _⟩ =>
    show win0_3.index ⟨(i 0).val, hq⟩ (0 : Fin 3) * 1 ≤ (i 0).val ∧ (i 0).val < win0_3.index ⟨(i 0).val, hq⟩ (0 : Fin 3) * 1 + 1
    rw [e0]; omega
  | ⟨1, _⟩ =>
    show win0_3.index ⟨(i 0).val, hq⟩ (1 : Fin 3) * 1 ≤ (i 1).val ∧ (i 1).val < win0_3.index ⟨(i 0).val, hq⟩ (1 : Fin 3) * 1 + 1
    rw [e1]; omega
  | ⟨2, _⟩ =>
    show win0_3.index ⟨(i 0).val, hq⟩ (2 : Fin 3) * 4096 ≤ (i 2).val ∧ (i 2).val < win0_3.index ⟨(i 0).val, hq⟩ (2 : Fin 3) * 4096 + 4096
    rw [e2]; omega

/-- Row k of the third output lies in block k / 512. -/
theorem cover4 (i : S4096x1.Idx) : ∃ t : Fin cfg0.N, (cfg0.win 4).flush t = true ∧ i ∈ ((cfg0.win 4).blk t).view.set := by
  have hi0 : (i 0).val < 4096 := (i 0).isLt
  have hi1 : (i 1).val < 1 := (i 1).isLt
  have hN : cfg0.N = 8 := N_0
  have hq : (i 0).val / 512 < cfg0.N := by omega
  refine ⟨⟨(i 0).val / 512, hq⟩, flush0_4 _, ?_⟩
  rw [mem_blk4]
  have e0 : win0_4.index ⟨(i 0).val / 512, hq⟩ (0 : Fin 2) = (i 0).val / 512 := (idx_facts ⟨(i 0).val / 512, hq⟩).2.2.2.2.2.2.2.2.2.1
  have e1 : win0_4.index ⟨(i 0).val / 512, hq⟩ (1 : Fin 2) = 0 := (idx_facts ⟨(i 0).val / 512, hq⟩).2.2.2.2.2.2.2.2.2.2.1
  intro a
  match a with
  | ⟨0, _⟩ =>
    show win0_4.index ⟨(i 0).val / 512, hq⟩ (0 : Fin 2) * 512 ≤ (i 0).val ∧ (i 0).val < win0_4.index ⟨(i 0).val / 512, hq⟩ (0 : Fin 2) * 512 + 512
    rw [e0]; omega
  | ⟨1, _⟩ =>
    show win0_4.index ⟨(i 0).val / 512, hq⟩ (1 : Fin 2) * 1 ≤ (i 1).val ∧ (i 1).val < win0_4.index ⟨(i 0).val / 512, hq⟩ (1 : Fin 2) * 1 + 1
    rw [e1]; omega

/-! ## The arrays after the region -/

theorem final2 (c : Dev nD) : (dats m 0 c).arrAt 2 cfg0.N = G2 (X m c) (Y m c) :=
  (dats m 0 c).arrAt_eq_of_cover 2 (G2 (X m c) (Y m c)) (fun t _ => flushed2_eq m c t) cover2

theorem final3 (c : Dev nD) : (dats m 0 c).arrAt 3 cfg0.N = G3 (X m c) (Y m c) :=
  (dats m 0 c).arrAt_eq_of_cover 3 (G3 (X m c) (Y m c)) (fun t _ => flushed3_eq m c t) cover3

theorem final4 (c : Dev nD) : (dats m 0 c).arrAt 4 cfg0.N = G4 (X m c) (Y m c) :=
  (dats m 0 c).arrAt_eq_of_cover 4 (G4 (X m c) (Y m c)) (fun t _ => flushed4_eq m c t) cover4

end Cert.KernelIdeal.Arrays

end
-- ==== Proof.KernelTail.lean ====
/-
  The host operations after the kernel's region, as one function of the three arrays the region writes, and its value.

  The region leaves an [4096, 1] column of row sums, an [8, 1, 4096] array of column sums per block of 512 rows, and an
  [4096, 1] column of the matching pairs' similarities. The host drops the unit axes, adds the eight partial column sums
  (a sum over 8 blocks of 512 rows is the sum over the 4096 rows), forms the matching pairs' weights (the exponential of the
  similarity over one half), takes minus the logarithm of each weight over its row sum and over its column sum, adds each
  family of 4096 losses from zero, adds the two totals and divides by 8192: the loss of `Spec`, once each `0 + s` is
  read as `s`.
-/
import proofs.«141112_j84318797955094_2_alg».proof.KernelIdeal
import proofs.«141112_j84318797955094_2_alg».proof.Proof.Gen.KernelIdeal
import proofs.«141112_j84318797955094_2_alg».proof.Proof.Spec
import proofs.«141112_j84318797955094_2_alg».proof.Proof.LibSumsAtIndex

noncomputable section

open scoped BigOperators

namespace Cert.KernelIdeal.Tail

open Cert.KernelIdeal Cert.KernelIdeal.Gen Idealize.ShloMosaic Idealize.ShloMosaic.ValueIdx

/-- The 22 host operations after the region, composed: the result as a function of the three arrays the region writes. -/
def tail (A2 : FVec Ideal S4096x1 .f32) (A3 : FVec Ideal S8x1x4096 .f32) (A4 : FVec Ideal S4096x1 .f32) : FVec Ideal S_ .f32 :=
  Host.divf
    (addf
      (Host.reduceAdd
        (Host.negf (Host.log (Host.divf
          (Host.exp (Host.divf (shapeCast S4096 A4 shapeCasts_S4096x1_S4096) (broadcastInDim S4096 ![] bcast_S_S4096 (constant (F := Ideal) S_ .f32 0x3F000000#32))))
          (shapeCast S4096 A2 shapeCasts_S4096x1_S4096))))
        (constant (F := Ideal) S_ .f32 0x00000000#32) reducesTo_S4096_S_d0 h_S_)
      (Host.reduceAdd
        (Host.negf (Host.log (Host.divf
          (Host.exp (Host.divf (shapeCast S4096 A4 shapeCasts_S4096x1_S4096) (broadcastInDim S4096 ![] bcast_S_S4096 (constant (F := Ideal) S_ .f32 0x3F000000#32))))
          (Host.reduceAdd (shapeCast S8x4096 A3 shapeCasts_S8x1x4096_S8x4096) (constant (F := Ideal) S_ .f32 0x00000000#32) reducesTo_S8x4096_S4096_d0 h_S_))))
        (constant (F := Ideal) S_ .f32 0x00000000#32) reducesTo_S4096_S_d0 h_S_))
    (constant (F := Ideal) S_ .f32 0x46000000#32)

/-- Row `b · 512 + r` of a 4096-row array. -/
abbrev rowAt (b : Fin 8) (r : Fin 512) : Fin 4096 := ⟨b.val * 512 + r.val, by have := b.isLt; have := r.isLt; omega⟩

/-- The value of the tail, when the three arrays hold the row sums, the per-block column sums and the matching pairs'
    similarities of two arrays `X`, `Y`. -/
theorem tail_apply (X Y : Cert.Spec.Mat) (A2 : FVec Ideal S4096x1 .f32) (A3 : FVec Ideal S8x1x4096 .f32) (A4 : FVec Ideal S4096x1 .f32)
    (h2 : ∀ (k : Fin 4096) (u : Fin 1), A2 (ix2 k u) = Cert.Spec.rowSum X Y k)
    (h3 : ∀ (b : Fin 8) (u : Fin 1) (j : Fin 4096), A3 (ix3 b u j) = ∑ r : Fin 512, Cert.Spec.wt X Y (rowAt b r) j)
    (h4 : ∀ (k : Fin 4096) (u : Fin 1), A4 (ix2 k u) = Cert.Spec.sim X Y k k)
    (i : S_.Idx) : tail A2 A3 A4 i = Cert.Spec.loss X Y := by
  have e1 : ∀ k : Fin 4096, shapeCast S4096 A2 shapeCasts_S4096x1_S4096 (ix1 k) = Cert.Spec.rowSum X Y k := fun k => by
    rw [SumsAtIndex.shapeCast_a1_a_apply, h2]
  have e3 : ∀ k : Fin 4096, shapeCast S4096 A4 shapeCasts_S4096x1_S4096 (ix1 k) = Cert.Spec.sim X Y k k := fun k => by
    rw [SumsAtIndex.shapeCast_a1_a_apply, h4]
  have e4 : ∀ j : Fin 4096, Host.reduceAdd (shapeCast S8x4096 A3 shapeCasts_S8x1x4096_S8x4096) (constant (F := Ideal) S_ .f32 0x00000000#32)
      reducesTo_S8x4096_S4096_d0 h_S_ (ix1 j) = Cert.Spec.colSum X Y j := fun j => by
    show Ideal.hostReduceAdd reducesTo_S8x4096_S4096_d0 (shapeCast S8x4096 A3 shapeCasts_S8x1x4096_S8x4096) (Ideal.ofBits .f32 0x00000000#32) (ix1 j) = _
    rw [SumsAtIndex.hostColsum_apply _ _ _ (by decide) j, Ideal.ofBits_zero_f32, zero_add]
    unfold Cert.Spec.colSum
    rw [← Cert.Spec.sum_blocks (fun k => Cert.Spec.wt X Y k j)]
    refine Finset.sum_congr rfl fun b _ => ?_
    rw [SumsAtIndex.shapeCast_a1b_ab_apply, h3]
  have eN : ∀ k : Fin 4096, Host.exp (Host.divf (shapeCast S4096 A4 shapeCasts_S4096x1_S4096)
      (broadcastInDim S4096 ![] bcast_S_S4096 (constant (F := Ideal) S_ .f32 0x3F000000#32))) (ix1 k) = Cert.Spec.num X Y k := fun k => by
    show Ideal.exp (Ideal.div (shapeCast S4096 A4 shapeCasts_S4096x1_S4096 (ix1 k)) (Ideal.ofBits .f32 0x3F000000#32)) = _
    rw [e3]
    rfl
  show Ideal.div
      (Ideal.hostReduceAdd reducesTo_S4096_S_d0 _ (Ideal.ofBits .f32 0x00000000#32) i
        + Ideal.hostReduceAdd reducesTo_S4096_S_d0 _ (Ideal.ofBits .f32 0x00000000#32) i)
      (Ideal.ofBits .f32 0x46000000#32) = _
  rw [SumsAtIndex.hostTotal_apply, SumsAtIndex.hostTotal_apply, Ideal.ofBits_zero_f32, zero_add, zero_add]
  unfold Cert.Spec.loss
  refine congrArg (fun s => Ideal.div s Cert.Spec.count) ?_
  refine congrArg₂ (· + ·) (Finset.sum_congr rfl fun k _ => ?_) (Finset.sum_congr rfl fun k _ => ?_)
  · show -Ideal.log (Ideal.div (Host.exp (F := Ideal) _ (ix1 k)) (shapeCast S4096 A2 shapeCasts_S4096x1_S4096 (ix1 k))) = _
    rw [eN, e1]
    rfl
  · show -Ideal.log (Ideal.div (Host.exp (F := Ideal) _ (ix1 k)) (Host.reduceAdd (F := Ideal) _ _ reducesTo_S8x4096_S4096_d0 h_S_ (ix1 k))) = _
    rw [eN, e4]
    rfl

end Cert.KernelIdeal.Tail

end
-- ==== Proof.KernelRun.lean ====
/-
  The idealized kernel's run, read: its result is the loss of `Spec` of the two argument arrays, and the arguments end
  unchanged.

  The region leaves its three output arrays at the functions `G2`, `G3`, `G4` of the arguments (the row sums, the per-block
  column sums, the matching pairs' similarities); the host operations after the region are one function of those three
  arrays, whose value at such arrays is the loss.
-/
import proofs.«141112_j84318797955094_2_alg».proof.Proof.KernelArrays
import proofs.«141112_j84318797955094_2_alg».proof.Proof.KernelTail
import Idealize.ShloMosaic.Lib.StableHlo.Run

set_option maxRecDepth 16384

noncomputable section

open scoped BigOperators

namespace Cert.KernelIdeal.Run

open Cert.KernelIdeal Cert.KernelIdeal.Gen
open Idealize.ShloMosaic Idealize.ShloMosaic.TcCoe Idealize.SL.Sem Idealize.ShloMosaic.ValueIdx Idealize.ShloMosaic.StableHlo
open Cert.KernelIdeal.Arrays (X Y G2 G3 G4)

variable (m : (ℓ : Loc nD τ sig) → Buf (Elt Ideal) ℓ) (ρ : Dev nD → PrngReg)

/-- The buffers as the region leaves them: the three output arrays at what the grid wrote, everything else as it was. -/
abbrev W (c : Dev nD) : Valuation τ sig (Elt Ideal) :=
  Pipeline.withArrays (cfgs 0).spec c (V0 m c) (fun w => (dats m 0 c).arrAt w (cfgs 0).N)

theorem W2 (c : Dev nD) : W m c (Proc.devRef .tc main_v0_0) = G2 (X m c) (Y m c) :=
  (Pipeline.withArrays_arr spec0 launch0.win.arr_inj c _ _ 2).trans (Arrays.final2 m c)
theorem W3 (c : Dev nD) : W m c (Proc.devRef .tc main_v0_1) = G3 (X m c) (Y m c) :=
  (Pipeline.withArrays_arr spec0 launch0.win.arr_inj c _ _ 3).trans (Arrays.final3 m c)
theorem W4 (c : Dev nD) : W m c (Proc.devRef .tc main_v0_2) = G4 (X m c) (Y m c) :=
  (Pipeline.withArrays_arr spec0 launch0.win.arr_inj c _ _ 4).trans (Arrays.final4 m c)

/-- The result of the host operations after the region: the loss. -/
theorem tail_eq (c : Dev nD) :
    Pipeline.afterTail₀ cfgs (dats m) 0 (V0 m) [hostOps1] c main_v17 = fun _ => Cert.Spec.loss (X m c) (Y m c) := by
  unfold Pipeline.afterTail₀
  show StableHlo.after hostOps1 _ (Proc.devRef .tc main_v17) = _
  after_results
  show Tail.tail (W m c (Proc.devRef .tc main_v0_0)) (W m c (Proc.devRef .tc main_v0_1)) (W m c (Proc.devRef .tc main_v0_2)) = _
  rw [W2, W3, W4]
  funext i
  refine Tail.tail_apply (X m c) (Y m c) _ _ _ (fun k u => ?_) (fun b u j => ?_) (fun k u => ?_) i
  · rfl
  · rfl
  · rfl

/-- Every weakly fair execution of the idealized kernel's @main terminates with its result at the loss of the argument
    arrays and the arguments unchanged. -/
theorem run : θ_run defs (onTc (τ := τ) (main (F := Ideal))) ⟨m, fun _ => 0, ρ⟩ fun r => ∀ c : Dev nD,
      r.2.mem ((c : Thread nD τ).loc main_v17) = (fun _ => Cert.Spec.loss (X m c) (Y m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v17 (Pipeline.mem_restRefs_of main_v17 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Run

end
-- ==== Proof.lean ====
/-
  The certificate: the kernel and its jnp reference compute the same normalized-temperature cross-entropy loss.

  Both programs take two 4096 × 256 arrays. Each normalizes every row to a direction (the row over the larger of its
  Euclidean length and a small constant), and the loss is built from the 4096 × 4096 table of weights
  exp (2 · ⟨direction k of the first, direction j of the second⟩): for every k, minus the logarithm of the matching pair's
  weight over the sum of row k, and over the sum of column k; the 8192 losses are averaged (`Spec.loss`).

  The kernel walks the rows of the first array in 8 blocks of 512: each grid point forms its 512 × 4096 strip of the table,
  stores the strip's row sums, its column sums, and the matching pairs' similarities; the host adds the 8 partial column sums
  and finishes the loss. The reference stacks the two families of directions into one 8192-row array, forms the whole
  8192 × 8192 table of inner products, reads the matching pairs off its two off-diagonals, and masks the two same-family
  quarters of the table to zero before adding each row. Over the extended reals the two agree: dividing by one half is
  multiplying by two, a masked term is 0 · s = 0 and an unmasked one 1 · s = s, products commute, and finite sums may be
  regrouped (8192 = 4096 + 4096 terms, 4096 = 8 · 512 rows) — none of which needs the inputs to be finite.

  The three frames are the generated frame certificates (the reference's from its run); the idealization rewrote nothing, so
  `preserves` is `True`.
-/
import proofs.«141112_j84318797955094_2_alg».proof.Defs
import proofs.«141112_j84318797955094_2_alg».proof.Proof.Gen.Kernel
import proofs.«141112_j84318797955094_2_alg».proof.Proof.Gen.Kernel.Frame
import proofs.«141112_j84318797955094_2_alg».proof.Proof.Gen.KernelIdeal
import proofs.«141112_j84318797955094_2_alg».proof.Proof.Gen.KernelIdeal.Frame
import proofs.«141112_j84318797955094_2_alg».proof.Proof.Gen.ReferenceIdeal
import proofs.«141112_j84318797955094_2_alg».proof.Proof.Gen.Pre_finite_inputs
import proofs.«141112_j84318797955094_2_alg».proof.Proof.RefRunP
import proofs.«141112_j84318797955094_2_alg».proof.Proof.RefResult
import proofs.«141112_j84318797955094_2_alg».proof.Proof.RefLoss
import proofs.«141112_j84318797955094_2_alg».proof.Proof.KernelRun
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- At the ideal values both runs end with the loss of the argument arrays: the kernel's by its region's three arrays and the
    host operations after it, the reference's by reading its stages down to the same function. -/
theorem algebraic : Cert.algebraic_KernelIdeal_ReferenceIdeal := by
  intro m ρ m' ρ' _ hagree
  refine ⟨fun c => fun _ => Cert.Spec.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Cert.KernelIdeal.Run.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v44_eq, (hagree c).1, (hagree c).2]
  funext i
  rw [eq_ix0 i]
  exact Cert.RefLoss.ref_loss _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
